-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x128 : Shape := ⟨2, ![1, 128]⟩
abbrev S5000x128 : Shape := ⟨2, ![5000, 128]⟩
abbrev S5000x64 : Shape := ⟨2, ![5000, 64]⟩

abbrev nBuf : Space → Nat
  | .hbm => 76
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S1700000x1, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x128, .f32⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c : Ref sig .tc := ⟨.hbm, 20, rfl⟩
abbrev main_call0_v12 : Ref sig .tc := ⟨.hbm, 21, rfl⟩
abbrev main_call0_v13 : Ref sig .tc := ⟨.hbm, 22, rfl⟩
abbrev main_call0_c_1 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_c_2 : Ref sig .tc := ⟨.hbm, 29, rfl⟩
abbrev main_call0_v19 : Ref sig .tc := ⟨.hbm, 30, rfl⟩
abbrev main_call0_v20 : Ref sig .tc := ⟨.hbm, 31, rfl⟩
abbrev main_call0_c_3 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_c_4 : Ref sig .tc := ⟨.hbm, 41, rfl⟩
abbrev main_call0_v29 : Ref sig .tc := ⟨.hbm, 42, rfl⟩
abbrev main_call0_v30 : Ref sig .tc := ⟨.hbm, 43, rfl⟩
abbrev main_call0_c_5 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_call0_v37 : Ref sig .tc := ⟨.hbm, 51, rfl⟩
abbrev main_call0_cst_6 : Ref sig .tc := ⟨.hbm, 52, rfl⟩
abbrev main_call0_v38 : Ref sig .tc := ⟨.hbm, 53, rfl⟩
abbrev main_call0_v39 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_c_7 : Ref sig .tc := ⟨.hbm, 59, rfl⟩
abbrev main_call0_v44 : Ref sig .tc := ⟨.hbm, 60, rfl⟩
abbrev main_call0_v45 : Ref sig .tc := ⟨.hbm, 61, rfl⟩
abbrev main_call0_c_8 : Ref sig .tc := ⟨.hbm, 62, rfl⟩
abbrev main_call0_v46 : Ref sig .tc := ⟨.hbm, 63, rfl⟩
abbrev main_call0_v47 : Ref sig .tc := ⟨.hbm, 64, rfl⟩
abbrev main_call0_v48 : Ref sig .tc := ⟨.hbm, 65, rfl⟩
abbrev main_call0_v49 : Ref sig .tc := ⟨.hbm, 66, rfl⟩
abbrev main_call0_v50 : Ref sig .tc := ⟨.hbm, 67, rfl⟩
abbrev main_call0_v51 : Ref sig .tc := ⟨.hbm, 68, rfl⟩
abbrev main_call0_v52 : Ref sig .tc := ⟨.hbm, 69, rfl⟩
abbrev main_call0_cst_9 : Ref sig .tc := ⟨.hbm, 70, rfl⟩
abbrev main_call0_v53 : Ref sig .tc := ⟨.hbm, 71, rfl⟩
abbrev main_call0_v54 : Ref sig .tc := ⟨.hbm, 72, rfl⟩
abbrev main_call0_v55 : Ref sig .tc := ⟨.hbm, 73, rfl⟩
abbrev main_call0_v56 : Ref sig .tc := ⟨.hbm, 74, rfl⟩
abbrev main_v0 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x128_S128x64_S5000x64_1_0_0_1_n_n_wf : DotDims.WF S5000x128 S128x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x128, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  The program is six segments: a stretch of host operations, the first projection's grid, a second stretch, the
  bias-and-rectifier grid, a third stretch, the last projection's grid.  The contents of every unscoped buffer at each
  boundary are a fold through the program (the generated W0 … W6); the run below ends with every unscoped buffer at the
  last boundary's contents, so the result array is W6 at its buffer and the six argument arrays are as launched.
-/
import proofs.«171908_j39848706572466_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the argument arrays as launched. -/
theorem run_main : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«171908_j39848706572466_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«171908_j39848706572466_2_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.GcnSpec.lean ====
/-
  The layers of a two-layer graph convolution, entry by entry, for any sizes.

  `proj X W` is the matrix product: entry (r, q) is the sum over k of X[r, k] · W[k, q].  `biasRelu A B` adds the
  bias row B (an array with one row) to every row of A and takes the maximum with zero.  A kernel body that rounds
  both operands to a narrower format (the identity on the extended reals) and multiplies them into the zero accumulator
  computes `proj` of its blocks; one that adds a broadcast one-row bias and takes the maximum with a broadcast zero
  computes `biasRelu` of its blocks.  An entry of either depends on one row of the left operand only, which is what lets a
  grid of row blocks compute the layer of the whole array.
-/
import proofs.«171908_j39848706572466_2_alg».proof.Proof.LibDenseLayer

noncomputable section

open scoped BigOperators

namespace Cert.GcnSpec

open Idealize.ShloMosaic Idealize.ShloMosaic.ValueIdx Cert.Lib.DotCols Cert.Lib.DotColsHost

variable {n M K N : Nat}

/-- Entry (r, q) of the product X · W. -/
def proj (X : FVec Ideal ⟨2, ![n, K]⟩ .f32) (W : FVec Ideal ⟨2, ![K, N]⟩ .f32) : FVec Ideal ⟨2, ![n, N]⟩ .f32 :=
  fun i => ∑ k : Fin K, X (ix2 (n0 := n) (n1 := K) (i 0) k) * W (ix2 (n0 := K) (n1 := N) k (i 1))

theorem proj_apply (X : FVec Ideal ⟨2, ![n, K]⟩ .f32) (W : FVec Ideal ⟨2, ![K, N]⟩ .f32) (r : Fin n) (q : Fin N) :
    proj X W (ix2 r q) = ∑ k : Fin K, X (ix2 r k) * W (ix2 k q) := rfl

/-- Entry (r, q) of A plus the bias row's entry q, rectified. -/
def biasRelu (A : FVec Ideal ⟨2, ![n, N]⟩ .f32) (B : FVec Ideal ⟨2, ![1, N]⟩ .f32) : FVec Ideal ⟨2, ![n, N]⟩ .f32 :=
  fun i => max (A i + B (ix2 (n0 := 1) (n1 := N) (0 : Fin 1) (i 1))) (Ideal.ofBits .f32 0x00000000#32)

theorem biasRelu_apply (A : FVec Ideal ⟨2, ![n, N]⟩ .f32) (B : FVec Ideal ⟨2, ![1, N]⟩ .f32) (r : Fin n) (q : Fin N) :
    biasRelu A B (ix2 r q) = max (A (ix2 r q) + B (ix2 (0 : Fin 1) q)) (Ideal.ofBits .f32 0x00000000#32) := rfl

/-- A kernel body's product of its blocks is `proj` of the blocks. -/
theorem block_proj_eq (D : DotDims ⟨2, ![M, K]⟩ ⟨2, ![K, N]⟩ ⟨2, ![M, N]⟩) (hD : D = DotDims.plain M K N)
    (hbits : FTy.bits .bf16 < FTy.bits .f32)
    (x0 : FVec Ideal ⟨2, ![M, K]⟩ .f32) (x1 : FVec Ideal ⟨2, ![K, N]⟩ .f32) :
    matmul D none (truncf .bf16 x0 hbits) (truncf .bf16 x1 hbits) (constant ⟨2, ![M, N]⟩ .f32 0x00000000#32) = proj x0 x1 := by
  funext i
  obtain ⟨p, q, rfl⟩ : ∃ (p : Fin M) (q : Fin N), i = ix2 p q := ⟨i 0, i 1, eq_ix2 i⟩
  rw [proj_apply]
  exact (matmul_cols_apply D hD none (truncf .bf16 x0 hbits) (truncf .bf16 x1 hbits) p q).trans
    (Finset.sum_congr rfl fun k _ => rfl)

/-- A kernel body's bias-and-rectifier of its blocks is `biasRelu` of the blocks. -/
theorem block_biasRelu_eq (h0 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩)
    (x0 : FVec Ideal ⟨2, ![M, N]⟩ .f32) (x1 : FVec Ideal ⟨2, ![1, N]⟩ .f32) :
    maximumf (addf (shapeCast ⟨2, ![M, N]⟩ x0 h0) (broadcastTo ⟨2, ![M, N]⟩ (shapeCast ⟨2, ![1, N]⟩ x1 h2) hb))
      (broadcast ⟨2, ![M, N]⟩ (Scalar.ofBits (F := Ideal) .f32 0x00000000#32)) = biasRelu x0 x1 := by
  funext i
  obtain ⟨p, q, rfl⟩ : ∃ (p : Fin M) (q : Fin N), i = ix2 p q := ⟨i 0, i 1, eq_ix2 i⟩
  rw [biasRelu_apply, maximumf_apply, addf_apply, shapeCast_self, shapeCast_self, broadcastTo_1b_ab_apply]
  rfl

/-- An entry of the product reads one row of the left operand and one column of the right. -/
theorem proj_entry (X : FVec Ideal ⟨2, ![n, K]⟩ .f32) (x : FVec Ideal ⟨2, ![M, K]⟩ .f32) (W W' : FVec Ideal ⟨2, ![K, N]⟩ .f32)
    (p : Fin M) (r : Fin n) (q : Fin N)
    (hrow : ∀ k : Fin K, x (ix2 p k) = X (ix2 r k)) (hcol : ∀ k : Fin K, W' (ix2 k q) = W (ix2 k q)) :
    proj x W' (ix2 p q) = proj X W (ix2 r q) := by
  rw [proj_apply, proj_apply]
  exact Finset.sum_congr rfl fun k _ => by rw [hrow k, hcol k]

/-- An entry of the rectified sum reads one entry of the array and one of the bias row. -/
theorem biasRelu_entry (A : FVec Ideal ⟨2, ![n, N]⟩ .f32) (a : FVec Ideal ⟨2, ![M, N]⟩ .f32) (B B' : FVec Ideal ⟨2, ![1, N]⟩ .f32)
    (p : Fin M) (r : Fin n) (q : Fin N)
    (hent : a (ix2 p q) = A (ix2 r q)) (hbias : B' (ix2 (0 : Fin 1) q) = B (ix2 (0 : Fin 1) q)) :
    biasRelu a B' (ix2 p q) = biasRelu A B (ix2 r q) := by
  rw [biasRelu_apply, biasRelu_apply, hent, hbias]

end Cert.GcnSpec

end
-- ==== Proof.KernelRegions.lean ====
/-
  What each of the three grids leaves in its output array, as one function of the arrays the grid is entered with.

  Each grid has twenty points; point t reads rows 5000·t … 5000·t + 4999 of its row-blocked input, the whole of its
  weight and bias inputs, and writes the same rows of its output.  The body's block is the layer of the blocks
  (`GcnSpec.proj`, `GcnSpec.biasRelu`, `DenseLayer.affine`), an entry of a layer reads one row of the left operand, and
  the twenty row blocks cover the output: so the output array ends as the layer of the whole input arrays.
-/
import proofs.«171908_j39848706572466_2_alg».proof.Proof.Gen.KernelIdeal.Frame
import proofs.«171908_j39848706572466_2_alg».proof.Proof.GcnSpec
import Idealize.ShloMosaic.Lib.Pipeline.Value

set_option maxRecDepth 16384

noncomputable section

namespace Cert.KernelIdeal.KRegions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GcnSpec Cert.Lib.DenseLayer

variable (V : (c : Dev nD) → (b : Ref sig .tc) → Buf (Elt Ideal) ((c : Thread nD τ).loc b))

theorem hz : (![0, 0] : Fin 2 → Nat) = fun _ => 0 := funext fun a => by fin_cases a <;> rfl

/-! ## The first projection -/

/-- The body's block is the product of its blocks. -/
theorem pay0_eq (x0 : Vec Ideal S5000x128 .f32) (x1 : Vec Ideal S128x64 .f32) : k0_pay1 x0 x1 = proj x0 x1 :=
  block_proj_eq dot_S5000x128_S128x64_S5000x64_1_0_0_1_n_n rfl bitsLt_bf16_f32 x0 x1

/-- Point t's blocks: rows 5000·t … of the row-blocked windows, the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed0_eq (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  rw [pay0_eq]
  obtain ⟨e0, e1, e2, e3, e4, e5⟩ := idx_facts0 t
  funext j
  obtain ⟨p, q, rfl⟩ : ∃ (p : Fin 5000) (q : Fin 64), j = ix2 p q := ⟨j 0, j 1, eq_ix2 j⟩
  have hN : cfg0.N = 20 := N_0
  have ht : t.val < 20 := hN ▸ t.isLt
  have hemb : ((cfg0.win 2).blk t).view.emb (ix2 p q) = ix2 (⟨t.val * 5000 + p.val, by have := p.isLt; omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  show proj (iblk0 V c 0 t) (iblk0 V c 1 t) (ix2 p q) = proj (V c main_arg0) (V c main_arg2) (((cfg0.win 2).blk t).view.emb (ix2 p q))
  rw [hemb]
  refine proj_entry (V c main_arg0) (iblk0 V c 0 t) (V c main_arg2) (iblk0 V c 1 t) p _ q (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega

/-- An index of the output is in point t's block iff each coordinate is in the block's range. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_call0_v27).slice (win0_2.rect t)).set ↔ _
  rw [View.set_slice_whole, Rect.mem_set_unit]
  exact Iff.rfl

/-- Row r of the output is in the block of point r / 5000. -/
theorem cover0 (i : S100000x64.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  refine ⟨⟨(i 0).val / 5000, by rw [hN]; omega⟩, flush0_2 _, ?_⟩
  rw [mem_blk0]
  obtain ⟨e0, e1, e2, e3, e4, e5⟩ := idx_facts0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; simp only [] at e4; omega
  | ⟨1, _⟩ => show win0_2.index _ (1 : Fin 2) * 64 ≤ (i 1).val ∧ (i 1).val < win0_2.index _ (1 : Fin 2) * 64 + 64; omega

/-- The first projection's output array after its grid: the product of the arrays the grid was entered with. -/
theorem final0 (c : Dev nD) : (dat0 V c).arrAt 2 cfg0.N = proj (V c main_arg0) (V c main_arg2) :=
  (dat0 V c).arrAt_eq_of_cover 2 (proj (V c main_arg0) (V c main_arg2)) (fun t _ => flushed0_eq V c t) cover0

/-! ## The bias and the rectifier -/

/-- The body's block is the rectified sum of its blocks. -/
theorem pay1_eq (x0 : Vec Ideal S5000x64 .f32) (x1 : Vec Ideal S1x64 .f32) : k1_pay1 x0 x1 = biasRelu x0 x1 :=
  block_biasRelu_eq shapeCasts_S5000x64_S5000x64 shapeCasts_S1x64_S1x64 broadcasts_S1x64_S5000x64 x0 x1

/-- Point t's blocks: rows 5000·t … of the row-blocked windows, the whole bias row. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified sum of the whole arrays. -/
theorem flushed1_eq (c : Dev nD) (t : Fin cfg1.N) :
    (dat1 V c).flushed 2 t = ((cfg1.win 2).blk t).view.read (Elt Ideal) (biasRelu (V c main_call0_v40) (V c main_call0_v41)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  rw [pay1_eq]
  obtain ⟨e0, e1, e2, e3, e4, e5⟩ := idx_facts1 t
  funext j
  obtain ⟨p, q, rfl⟩ : ∃ (p : Fin 5000) (q : Fin 64), j = ix2 p q := ⟨j 0, j 1, eq_ix2 j⟩
  have hN : cfg1.N = 20 := N_1
  have ht : t.val < 20 := hN ▸ t.isLt
  have hemb : ((cfg1.win 2).blk t).view.emb (ix2 p q) = ix2 (⟨t.val * 5000 + p.val, by have := p.isLt; omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  show biasRelu (iblk1 V c 0 t) (iblk1 V c 1 t) (ix2 p q) = biasRelu (V c main_call0_v40) (V c main_call0_v41) (((cfg1.win 2).blk t).view.emb (ix2 p q))
  rw [hemb]
  refine biasRelu_entry (V c main_call0_v40) (iblk1 V c 0 t) (V c main_call0_v41) (iblk1 V c 1 t) p _ q ?_ ?_
  · show V c main_call0_v40 (((cfg1.win 0).blk t).view.emb (ix2 p q)) = _
    refine congrArg (V c main_call0_v40) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  · show V c main_call0_v41 (((cfg1.win 1).blk t).view.emb (ix2 (0 : Fin 1) q)) = _
    refine congrArg (V c main_call0_v41) ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega

/-- An index of the output is in point t's block iff each coordinate is in the block's range. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_call0_v42).slice (win1_2.rect t)).set ↔ _
  rw [View.set_slice_whole, Rect.mem_set_unit]
  exact Iff.rfl

/-- Row r of the output is in the block of point r / 5000. -/
theorem cover1 (i : S100000x64.Idx) : ∃ t : Fin cfg1.N, (cfg1.win 2).flush t = true ∧ i ∈ ((cfg1.win 2).blk t).view.set := by
  have hN : cfg1.N = 20 := N_1
  have hi0 : (i 0).val < 100000 := (i 0).isLt
  have hi1 : (i 1).val < 64 := (i 1).isLt
  refine ⟨⟨(i 0).val / 5000, by rw [hN]; omega⟩, flush1_2 _, ?_⟩
  rw [mem_blk1]
  obtain ⟨e0, e1, e2, e3, e4, e5⟩ := idx_facts1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; simp only [] at e4; omega
  | ⟨1, _⟩ => show win1_2.index _ (1 : Fin 2) * 64 ≤ (i 1).val ∧ (i 1).val < win1_2.index _ (1 : Fin 2) * 64 + 64; omega

/-- The rectifier's output array after its grid: the rectified sum of the arrays the grid was entered with. -/
theorem final1 (c : Dev nD) : (dat1 V c).arrAt 2 cfg1.N = biasRelu (V c main_call0_v40) (V c main_call0_v41) :=
  (dat1 V c).arrAt_eq_of_cover 2 (biasRelu (V c main_call0_v40) (V c main_call0_v41)) (fun t _ => flushed1_eq V c t) cover1

/-! ## The last projection, with its bias -/

/-- The body's block is the dense layer of its blocks. -/
theorem pay2_eq (x0 : Vec Ideal S5000x64 .f32) (x1 : Vec Ideal S64x128 .f32) (x2 : Vec Ideal S1x128 .f32) : k2_pay1 x0 x1 x2 = affine x0 x1 x2 :=
  block_affine_eq dot_S5000x64_S64x128_S5000x128_1_0_0_1_n_n rfl shapeCasts_S5000x64_S5000x64 shapeCasts_S1x128_S1x128
    broadcasts_S1x128_S5000x128 bitsLt_bf16_f32 x0 x1 x2

/-- Point t's blocks: rows 5000·t … of the row-blocked windows, the whole weight and bias row. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the dense layer of the whole arrays. -/
theorem flushed2_eq (c : Dev nD) (t : Fin cfg2.N) :
    (dat2 V c).flushed 3 t = ((cfg2.win 3).blk t).view.read (Elt Ideal) (affine (V c main_call0_v55) (V c main_arg4) (V c main_call0_v56)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x128) hz, View.ld_unit_zero (S := S1x128) hz]
  rw [pay2_eq]
  obtain ⟨e0, e1, e2, e3, e4, e5, e6, e7⟩ := idx_facts2 t
  funext j
  obtain ⟨p, q, rfl⟩ : ∃ (p : Fin 5000) (q : Fin 128), j = ix2 p q := ⟨j 0, j 1, eq_ix2 j⟩
  have hN : cfg2.N = 20 := N_2
  have ht : t.val < 20 := hN ▸ t.isLt
  have hemb : ((cfg2.win 3).blk t).view.emb (ix2 p q) = ix2 (⟨t.val * 5000 + p.val, by have := p.isLt; omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show affine (iblk2 V c 0 t) (iblk2 V c 1 t) (iblk2 V c 2 t) (ix2 p q)
    = affine (V c main_call0_v55) (V c main_arg4) (V c main_call0_v56) (((cfg2.win 3).blk t).view.emb (ix2 p q))
  rw [hemb]
  refine affine_entry (V c main_call0_v55) (iblk2 V c 0 t) (V c main_arg4) (iblk2 V c 1 t) (V c main_call0_v56) (iblk2 V c 2 t) p _ q
    (fun k => ?_) (fun k => ?_) ?_
  · show V c main_call0_v55 (((cfg2.win 0).blk t).view.emb (ix2 p k)) = _
    refine congrArg (V c main_call0_v55) ?_
    funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  · show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 128 + 1 * q.val = q.val; omega
  · show V c main_call0_v56 (((cfg2.win 2).blk t).view.emb (ix2 (0 : Fin 1) q)) = _
    refine congrArg (V c main_call0_v56) ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega

/-- An index of the output is in point t's block iff each coordinate is in the block's range. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v0).slice (win2_3.rect t)).set ↔ _
  rw [View.set_slice_whole, Rect.mem_set_unit]
  exact Iff.rfl

/-- Row r of the output is in the block of point r / 5000. -/
theorem cover2 (i : S100000x128.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  refine ⟨⟨(i 0).val / 5000, by rw [hN]; omega⟩, flush2_3 _, ?_⟩
  rw [mem_blk2]
  obtain ⟨e0, e1, e2, e3, e4, e5, e6, e7⟩ := idx_facts2 ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; simp only [] at e6; omega
  | ⟨1, _⟩ => show win2_3.index _ (1 : Fin 2) * 128 ≤ (i 1).val ∧ (i 1).val < win2_3.index _ (1 : Fin 2) * 128 + 128; omega

/-- The result array after the last grid: the dense layer of the arrays the grid was entered with. -/
theorem final2 (c : Dev nD) : (dat2 V c).arrAt 3 cfg2.N = affine (V c main_call0_v55) (V c main_arg4) (V c main_call0_v56) :=
  (dat2 V c).arrAt_eq_of_cover 3 (affine (V c main_call0_v55) (V c main_arg4) (V c main_call0_v56)) (fun t _ => flushed2_eq V c t) cover2

end Cert.KernelIdeal.KRegions

end
-- ==== Proof.KernelCols.lean ====
/-
  The kernel's host operations before the first grid, as terms of edge_index.

  The source and destination row numbers are the two rows of edge_index with every node's own number appended (a
  self-loop per node); the degree of a node is the number of edges into it, the edge weight the product of the inverse
  square roots of the degrees of the edge's two ends.  Row numbers are used as columns: `colOf` as they are (a
  scatter drops the ones out of range), `srcOf` with the negative ones counted from the end (a gather clamps).
-/
import proofs.«171908_j39848706572466_2_alg».proof.KernelIdeal
import proofs.«171908_j39848706572466_2_alg».proof.Proof.Gen.KernelIdeal
import Idealize.ShloMosaic.Lib.ValueIdx
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem

/-- A vector of row numbers as a column. -/
def colOf (a : IVec S1700000 32) : IVec S1700000x1 32 := broadcastInDim S1700000x1 ![0] bcast_S1700000_S1700000x1_0 a
/-- A vector of row numbers, the negative ones counted from the end, as a column. -/
def srcOf (a : IVec S1700000 32) : IVec S1700000x1 32 :=
  broadcastInDim S1700000x1 ![0] bcast_S1700000_S1700000x1_0
    (select (cmpi .slt a (broadcastInDim S1700000 ![] bcast_S_S1700000 (constantI S_ 32 0#32)))
      (addi a (broadcastInDim S1700000 ![] bcast_S_S1700000 (constantI S_ 32 100000#32))) a)

/-- The source row numbers: the first row of edge_index, then every node's own number (the appended self-loops). -/
def v5K (x1 : IVec S2x1600000 32) : IVec S1700000 32 :=
  concatenate S1700000 0 [⟨S1600000, shapeCast S1600000 (extractStridedSlice S1x1600000 ![0, 0] x1 slices_S2x1600000_S1x1600000_0_0) shapeCasts_S1x1600000_S1600000⟩,
    ⟨S100000, iotaInDim S100000 32 0⟩] concatenates_S1600000_S100000_S1700000_d0
/-- The destination row numbers: the second row of edge_index, then every node's own number. -/
def v6K (x1 : IVec S2x1600000 32) : IVec S1700000 32 :=
  concatenate S1700000 0 [⟨S1600000, shapeCast S1600000 (extractStridedSlice S1x1600000 ![1, 0] x1 slices_S2x1600000_S1x1600000_1_0) shapeCasts_S1x1600000_S1600000⟩,
    ⟨S100000, iotaInDim S100000 32 0⟩] concatenates_S1600000_S100000_S1700000_d0
/-- The inverse square roots of the degrees, from the destination row numbers: the degree is the segment sum of ones. -/
def dinvOf (a6 : IVec S1700000 32) : FVec Ideal S100000 .f32 :=
  Host.rsqrt (Host.scatterAdd (F := Ideal) scatter_S100000_S1700000x1_S1700000_n_0_0_1
    (broadcastInDim S100000 ![] bcast_S_S100000 (constant (F := Ideal) S_ .f32 0x00000000#32)) (colOf a6)
    (broadcastInDim S1700000 ![] bcast_S_S1700000 (constant (F := Ideal) S_ .f32 0x3F800000#32)))
/-- One entry per edge of a per-node vector, at the row numbers of a column. -/
def gath1 (d : FVec Ideal S100000 .f32) (i : IVec S1700000x1 32) : FVec Ideal S1700000 .f32 :=
  Host.gather gather_S100000_S1700000x1_S1700000_n_0_n_n_0_1_1 d i
/-- The edge weights from the per-node factors and the two vectors of row numbers: the product of the factors at the edge's
    two ends. -/
def nrmOf (d : FVec Ideal S100000 .f32) (a5 a6 : IVec S1700000 32) : FVec Ideal S1700000 .f32 :=
  mulf (gath1 d (srcOf a5)) (gath1 d (srcOf a6))
/-- The inverse square roots of the degrees, of edge_index. -/
def dinvK (x1 : IVec S2x1600000 32) : FVec Ideal S100000 .f32 := dinvOf (v6K x1)
/-- The edge weights, of edge_index. -/
def nrmK (x1 : IVec S2x1600000 32) : FVec Ideal S1700000 .f32 := nrmOf (dinvK x1) (v5K x1) (v6K x1)

end Cert.KernelIdeal.KValue

end
-- ==== Proof.KernelHost0.lean ====
/-
  The first stretch of host operations, from any contents: the two vectors of row numbers, and the arguments it leaves alone.
-/
import proofs.«171908_j39848706572466_2_alg».proof.Proof.Gen.KernelIdeal.Launch
import proofs.«171908_j39848706572466_2_alg».proof.Proof.KernelCols

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem

variable (Wv : Valuation τ sig (Elt Ideal))

set_option maxHeartbeats 4000000 in
theorem s0_v5 : StableHlo.after hostOps0 Wv (Proc.devRef .tc main_call0_v5) = v5K (Wv (Proc.devRef .tc main_arg1)) := by
  after_results
  try simp only [cast_eq]
  rfl
set_option maxHeartbeats 4000000 in
theorem s0_v6 : StableHlo.after hostOps0 Wv (Proc.devRef .tc main_call0_v6) = v6K (Wv (Proc.devRef .tc main_arg1)) := by
  after_results
  try simp only [cast_eq]
  rfl
set_option maxHeartbeats 4000000 in
theorem s0_arg0 : StableHlo.after hostOps0 Wv (Proc.devRef .tc main_arg0) = (Wv (Proc.devRef .tc main_arg0)) := by
  after_results <;> rfl
set_option maxHeartbeats 4000000 in
theorem s0_arg2 : StableHlo.after hostOps0 Wv (Proc.devRef .tc main_arg2) = (Wv (Proc.devRef .tc main_arg2)) := by
  after_results <;> rfl
set_option maxHeartbeats 4000000 in
theorem s0_arg3 : StableHlo.after hostOps0 Wv (Proc.devRef .tc main_arg3) = (Wv (Proc.devRef .tc main_arg3)) := by
  after_results <;> rfl
set_option maxHeartbeats 4000000 in
theorem s0_arg4 : StableHlo.after hostOps0 Wv (Proc.devRef .tc main_arg4) = (Wv (Proc.devRef .tc main_arg4)) := by
  after_results <;> rfl
set_option maxHeartbeats 4000000 in
theorem s0_arg5 : StableHlo.after hostOps0 Wv (Proc.devRef .tc main_arg5) = (Wv (Proc.devRef .tc main_arg5)) := by
  after_results <;> rfl

end Cert.KernelIdeal.KValue

end
-- ==== Proof.LibHloLine.lean ====
/-
  What the buffers hold after a straight line of host operations may be computed by cutting the line in two: the
  contents after `l₁ ++ l₂` from `V` are the contents after `l₂` from the contents after `l₁` from `V`. (The contents after a
  line are a fold over its operations, each rewriting the buffers it writes; a fold over a list cut in two is the fold over
  the second part started from the fold over the first.)
-/
import Idealize.ShloMosaic.Lib.StableHlo.Run

noncomputable section

namespace Idealize.ShloMosaic.StableHlo

variable {τ : Topo} {sig : RefSig} {Val : EltTy → Type}

/-- The contents after a line of operations followed by another line are the second line's contents from the first
    line's: the fold over the operations, cut anywhere. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Idealize.ShloMosaic.StableHlo

end
-- ==== Proof.KernelHost0w.lean ====
/-
  The first stretch of host operations, from any contents: the edge weights.

  The stretch is read in five consecutive pieces — the row numbers; the degrees; their inverse square roots; the factor at
  each edge's source; the factor at its destination and the product — each from any contents, and the pieces are then
  composed: what the buffers hold after a line of operations is what they hold after its second part from what they
  hold after its first.
-/
import proofs.«171908_j39848706572466_2_alg».proof.Proof.Gen.KernelIdeal.Launch
import proofs.«171908_j39848706572466_2_alg».proof.Proof.KernelCols
import proofs.«171908_j39848706572466_2_alg».proof.Proof.LibHloLine

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem

variable {F : FTy → Type} [FloatOps F]

/-- The row numbers. -/
abbrev hostOps0a : List (HloOp τ sig (Elt F)) :=
  ( StableHlo.TRef.unary (.of main_arg1 : StableHlo.TRef sig ⟨S2x1600000, .i32⟩) (.of main_call0_v0 : StableHlo.TRef sig ⟨S1x1600000, .i32⟩) (extractStridedSlice S1x1600000 ![0, 0] · slices_S2x1600000_S1x1600000_0_0)
  :: StableHlo.TRef.reshape (.of main_call0_v0 : StableHlo.TRef sig ⟨S1x1600000, .i32⟩) (.of main_call0_v1 : StableHlo.TRef sig ⟨S1600000, .i32⟩) rfl shapeCasts_S1x1600000_S1600000
  :: StableHlo.TRef.unary (.of main_arg1 : StableHlo.TRef sig ⟨S2x1600000, .i32⟩) (.of main_call0_v2 : StableHlo.TRef sig ⟨S1x1600000, .i32⟩) (extractStridedSlice S1x1600000 ![1, 0] · slices_S2x1600000_S1x1600000_1_0)
  :: StableHlo.TRef.reshape (.of main_call0_v2 : StableHlo.TRef sig ⟨S1x1600000, .i32⟩) (.of main_call0_v3 : StableHlo.TRef sig ⟨S1600000, .i32⟩) rfl shapeCasts_S1x1600000_S1600000
  :: StableHlo.TRef.nullary (.of main_call0_v4 : StableHlo.TRef sig ⟨S100000, .i32⟩) (iotaInDim S100000 32 0)
  :: StableHlo.TRef.binary (.of main_call0_v1 : StableHlo.TRef sig ⟨S1600000, .i32⟩) (.of main_call0_v4 : StableHlo.TRef sig ⟨S100000, .i32⟩) (.of main_call0_v5 : StableHlo.TRef sig ⟨S1700000, .i32⟩) (fun a b => concatenate S1700000 0 [⟨S1600000, a⟩, ⟨S100000, b⟩] concatenates_S1600000_S100000_S1700000_d0)
  :: StableHlo.TRef.binary (.of main_call0_v3 : StableHlo.TRef sig ⟨S1600000, .i32⟩) (.of main_call0_v4 : StableHlo.TRef sig ⟨S100000, .i32⟩) (.of main_call0_v6 : StableHlo.TRef sig ⟨S1700000, .i32⟩) (fun a b => concatenate S1700000 0 [⟨S1600000, a⟩, ⟨S100000, b⟩] concatenates_S1600000_S100000_S1700000_d0)
  :: [] )
/-- The degrees. -/
abbrev hostOps0b : List (HloOp τ sig (Elt F)) :=
  ( StableHlo.TRef.nullary (.of main_call0_cst : StableHlo.TRef sig ⟨S_, .f32⟩) (constant S_ .f32 0x3F800000#32)
  :: StableHlo.TRef.unary (.of main_call0_cst : StableHlo.TRef sig ⟨S_, .f32⟩) (.of main_call0_v7 : StableHlo.TRef sig ⟨S1700000, .f32⟩) (broadcastInDim S1700000 ![] bcast_S_S1700000)
  :: StableHlo.TRef.nullary (.of main_call0_cst_0 : StableHlo.TRef sig ⟨S_, .f32⟩) (constant S_ .f32 0x00000000#32)
  :: StableHlo.TRef.unary (.of main_call0_cst_0 : StableHlo.TRef sig ⟨S_, .f32⟩) (.of main_call0_v8 : StableHlo.TRef sig ⟨S100000, .f32⟩) (broadcastInDim S100000 ![] bcast_S_S100000)
  :: StableHlo.TRef.unary (.of main_call0_v6 : StableHlo.TRef sig ⟨S1700000, .i32⟩) (.of main_call0_v9 : StableHlo.TRef sig ⟨S1700000x1, .i32⟩) (broadcastInDim S1700000x1 ![0] bcast_S1700000_S1700000x1_0)
  :: StableHlo.TRef.ternary (.of main_call0_v8 : StableHlo.TRef sig ⟨S100000, .f32⟩) (.of main_call0_v9 : StableHlo.TRef sig ⟨S1700000x1, .i32⟩) (.of main_call0_v7 : StableHlo.TRef sig ⟨S1700000, .f32⟩) (.of main_call0_v10 : StableHlo.TRef sig ⟨S100000, .f32⟩) (fun x i u => Host.scatterAdd scatter_S100000_S1700000x1_S1700000_n_0_0_1 x i u)
  :: [] )
/-- Their inverse square roots. -/
abbrev hostOps0b' : List (HloOp τ sig (Elt F)) :=
  ( StableHlo.TRef.unary (.of main_call0_v10 : StableHlo.TRef sig ⟨S100000, .f32⟩) (.of main_call0_v11 : StableHlo.TRef sig ⟨S100000, .f32⟩) Host.rsqrt
  :: [] )
/-- The factor at each edge's source. -/
abbrev hostOps0c : List (HloOp τ sig (Elt F)) :=
  ( StableHlo.TRef.nullary (.of main_call0_c : StableHlo.TRef sig ⟨S_, .i32⟩) (constantI S_ 32 0#32)
  :: StableHlo.TRef.unary (.of main_call0_c : StableHlo.TRef sig ⟨S_, .i32⟩) (.of main_call0_v12 : StableHlo.TRef sig ⟨S1700000, .i32⟩) (broadcastInDim S1700000 ![] bcast_S_S1700000)
  :: StableHlo.TRef.binary (.of main_call0_v5 : StableHlo.TRef sig ⟨S1700000, .i32⟩) (.of main_call0_v12 : StableHlo.TRef sig ⟨S1700000, .i32⟩) (.of main_call0_v13 : StableHlo.TRef sig ⟨S1700000, .i1⟩) (cmpi .slt)
  :: StableHlo.TRef.nullary (.of main_call0_c_1 : StableHlo.TRef sig ⟨S_, .i32⟩) (constantI S_ 32 100000#32)
  :: StableHlo.TRef.unary (.of main_call0_c_1 : StableHlo.TRef sig ⟨S_, .i32⟩) (.of main_call0_v14 : StableHlo.TRef sig ⟨S1700000, .i32⟩) (broadcastInDim S1700000 ![] bcast_S_S1700000)
  :: StableHlo.TRef.binary (.of main_call0_v5 : StableHlo.TRef sig ⟨S1700000, .i32⟩) (.of main_call0_v14 : StableHlo.TRef sig ⟨S1700000, .i32⟩) (.of main_call0_v15 : StableHlo.TRef sig ⟨S1700000, .i32⟩) addi
  :: StableHlo.TRef.ternary (.of main_call0_v13 : StableHlo.TRef sig ⟨S1700000, .i1⟩) (.of main_call0_v15 : StableHlo.TRef sig ⟨S1700000, .i32⟩) (.of main_call0_v5 : StableHlo.TRef sig ⟨S1700000, .i32⟩) (.of main_call0_v16 : StableHlo.TRef sig ⟨S1700000, .i32⟩) select
  :: StableHlo.TRef.unary (.of main_call0_v16 : StableHlo.TRef sig ⟨S1700000, .i32⟩) (.of main_call0_v17 : StableHlo.TRef sig ⟨S1700000x1, .i32⟩) (broadcastInDim S1700000x1 ![0] bcast_S1700000_S1700000x1_0)
  :: StableHlo.TRef.binary (.of main_call0_v11 : StableHlo.TRef sig ⟨S100000, .f32⟩) (.of main_call0_v17 : StableHlo.TRef sig ⟨S1700000x1, .i32⟩) (.of main_call0_v18 : StableHlo.TRef sig ⟨S1700000, .f32⟩) (fun x i => Host.gather gather_S100000_S1700000x1_S1700000_n_0_n_n_0_1_1 x i)
  :: [] )
/-- The factor at each edge's destination, and the product. -/
abbrev hostOps0d : List (HloOp τ sig (Elt F)) :=
  ( StableHlo.TRef.nullary (.of main_call0_c_2 : StableHlo.TRef sig ⟨S_, .i32⟩) (constantI S_ 32 0#32)
  :: StableHlo.TRef.unary (.of main_call0_c_2 : StableHlo.TRef sig ⟨S_, .i32⟩) (.of main_call0_v19 : StableHlo.TRef sig ⟨S1700000, .i32⟩) (broadcastInDim S1700000 ![] bcast_S_S1700000)
  :: StableHlo.TRef.binary (.of main_call0_v6 : StableHlo.TRef sig ⟨S1700000, .i32⟩) (.of main_call0_v19 : StableHlo.TRef sig ⟨S1700000, .i32⟩) (.of main_call0_v20 : StableHlo.TRef sig ⟨S1700000, .i1⟩) (cmpi .slt)
  :: StableHlo.TRef.nullary (.of main_call0_c_3 : StableHlo.TRef sig ⟨S_, .i32⟩) (constantI S_ 32 100000#32)
  :: StableHlo.TRef.unary (.of main_call0_c_3 : StableHlo.TRef sig ⟨S_, .i32⟩) (.of main_call0_v21 : StableHlo.TRef sig ⟨S1700000, .i32⟩) (broadcastInDim S1700000 ![] bcast_S_S1700000)
  :: StableHlo.TRef.binary (.of main_call0_v6 : StableHlo.TRef sig ⟨S1700000, .i32⟩) (.of main_call0_v21 : StableHlo.TRef sig ⟨S1700000, .i32⟩) (.of main_call0_v22 : StableHlo.TRef sig ⟨S1700000, .i32⟩) addi
  :: StableHlo.TRef.ternary (.of main_call0_v20 : StableHlo.TRef sig ⟨S1700000, .i1⟩) (.of main_call0_v22 : StableHlo.TRef sig ⟨S1700000, .i32⟩) (.of main_call0_v6 : StableHlo.TRef sig ⟨S1700000, .i32⟩) (.of main_call0_v23 : StableHlo.TRef sig ⟨S1700000, .i32⟩) select
  :: StableHlo.TRef.unary (.of main_call0_v23 : StableHlo.TRef sig ⟨S1700000, .i32⟩) (.of main_call0_v24 : StableHlo.TRef sig ⟨S1700000x1, .i32⟩) (broadcastInDim S1700000x1 ![0] bcast_S1700000_S1700000x1_0)
  :: StableHlo.TRef.binary (.of main_call0_v11 : StableHlo.TRef sig ⟨S100000, .f32⟩) (.of main_call0_v24 : StableHlo.TRef sig ⟨S1700000x1, .i32⟩) (.of main_call0_v25 : StableHlo.TRef sig ⟨S1700000, .f32⟩) (fun x i => Host.gather gather_S100000_S1700000x1_S1700000_n_0_n_n_0_1_1 x i)
  :: StableHlo.TRef.binary (.of main_call0_v18 : StableHlo.TRef sig ⟨S1700000, .f32⟩) (.of main_call0_v25 : StableHlo.TRef sig ⟨S1700000, .f32⟩) (.of main_call0_v26 : StableHlo.TRef sig ⟨S1700000, .f32⟩) mulf
  :: [] )

theorem hostOps0_split : (hostOps0 : List (HloOp τ sig (Elt F))) = hostOps0a ++ (hostOps0b ++ (hostOps0b' ++ (hostOps0c ++ hostOps0d))) := rfl

/-- The degrees, from the destination row numbers: the segment sum of ones. -/
def degOf (a6 : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32)) (colOf a6)
    (broadcastInDim S1700000 ![] bcast_S_S1700000 (constant (F := Ideal) S_ .f32 0x3F800000#32))
/-- The inverse square root, entry by entry. -/
def rsq1 (d : FVec Ideal S100000 .f32) : FVec Ideal S100000 .f32 := Host.rsqrt d
theorem dinvOf_eq (a6 : IVec S1700000 32) : rsq1 (degOf a6) = dinvOf a6 := rfl

variable (Wv : Valuation τ sig (Elt Ideal))

set_option maxHeartbeats 4000000 in
theorem sa_v5 : StableHlo.after (hostOps0a (F := Ideal)) Wv (Proc.devRef .tc main_call0_v5) = v5K (Wv (Proc.devRef .tc main_arg1)) := by
  after_results
  rfl
set_option maxHeartbeats 4000000 in
theorem sa_v6 : StableHlo.after (hostOps0a (F := Ideal)) Wv (Proc.devRef .tc main_call0_v6) = v6K (Wv (Proc.devRef .tc main_arg1)) := by
  after_results
  rfl

set_option maxHeartbeats 4000000 in
theorem sb_v10 : StableHlo.after (hostOps0b (F := Ideal)) Wv (Proc.devRef .tc main_call0_v10) = degOf (Wv (Proc.devRef .tc main_call0_v6)) := by
  after_results
  rfl
set_option maxHeartbeats 4000000 in
theorem sb_v5 : StableHlo.after (hostOps0b (F := Ideal)) Wv (Proc.devRef .tc main_call0_v5) = (Wv (Proc.devRef .tc main_call0_v5)) := by
  after_results <;> rfl
set_option maxHeartbeats 4000000 in
theorem sb_v6 : StableHlo.after (hostOps0b (F := Ideal)) Wv (Proc.devRef .tc main_call0_v6) = (Wv (Proc.devRef .tc main_call0_v6)) := by
  after_results <;> rfl

set_option maxHeartbeats 4000000 in
theorem sb'_v11 : StableHlo.after (hostOps0b' (F := Ideal)) Wv (Proc.devRef .tc main_call0_v11) = rsq1 (Wv (Proc.devRef .tc main_call0_v10)) := by
  after_results
  rfl
set_option maxHeartbeats 4000000 in
theorem sb'_v5 : StableHlo.after (hostOps0b' (F := Ideal)) Wv (Proc.devRef .tc main_call0_v5) = (Wv (Proc.devRef .tc main_call0_v5)) := by
  after_results <;> rfl
set_option maxHeartbeats 4000000 in
theorem sb'_v6 : StableHlo.after (hostOps0b' (F := Ideal)) Wv (Proc.devRef .tc main_call0_v6) = (Wv (Proc.devRef .tc main_call0_v6)) := by
  after_results <;> rfl

set_option maxHeartbeats 4000000 in
theorem sc_v18 : StableHlo.after (hostOps0c (F := Ideal)) Wv (Proc.devRef .tc main_call0_v18) = gath1 (Wv (Proc.devRef .tc main_call0_v11)) (srcOf (Wv (Proc.devRef .tc main_call0_v5))) := by
  after_results
  rfl
set_option maxHeartbeats 4000000 in
theorem sc_v11 : StableHlo.after (hostOps0c (F := Ideal)) Wv (Proc.devRef .tc main_call0_v11) = (Wv (Proc.devRef .tc main_call0_v11)) := by
  after_results <;> rfl
set_option maxHeartbeats 4000000 in
theorem sc_v6 : StableHlo.after (hostOps0c (F := Ideal)) Wv (Proc.devRef .tc main_call0_v6) = (Wv (Proc.devRef .tc main_call0_v6)) := by
  after_results <;> rfl

set_option maxHeartbeats 4000000 in
theorem sd_v26 : StableHlo.after (hostOps0d (F := Ideal)) Wv (Proc.devRef .tc main_call0_v26) = mulf (Wv (Proc.devRef .tc main_call0_v18)) (gath1 (Wv (Proc.devRef .tc main_call0_v11)) (srcOf (Wv (Proc.devRef .tc main_call0_v6)))) := by
  after_results
  rfl

/-- The edge weights after the whole stretch. -/
theorem s0_v26 : StableHlo.after (hostOps0 (F := Ideal)) Wv (Proc.devRef .tc main_call0_v26) = nrmK (Wv (Proc.devRef .tc main_arg1)) := by
  rw [hostOps0_split, after_append, after_append, after_append, after_append]
  have h6_1 := sa_v6 Wv
  have h5_1 := sa_v5 Wv
  have h10_2 := (sb_v10 (StableHlo.after (hostOps0a (F := Ideal)) Wv)).trans (congrArg degOf h6_1)
  have h5_2 := (sb_v5 (StableHlo.after (hostOps0a (F := Ideal)) Wv)).trans h5_1
  have h6_2 := (sb_v6 (StableHlo.after (hostOps0a (F := Ideal)) Wv)).trans h6_1
  have h11_3 := ((sb'_v11 (StableHlo.after (hostOps0b (F := Ideal)) (StableHlo.after (hostOps0a (F := Ideal)) Wv))).trans (congrArg rsq1 h10_2)).trans (dinvOf_eq _)
  have h5_3 := (sb'_v5 (StableHlo.after (hostOps0b (F := Ideal)) (StableHlo.after (hostOps0a (F := Ideal)) Wv))).trans h5_2
  have h6_3 := (sb'_v6 (StableHlo.after (hostOps0b (F := Ideal)) (StableHlo.after (hostOps0a (F := Ideal)) Wv))).trans h6_2
  have h18_4 := (sc_v18 (StableHlo.after (hostOps0b' (F := Ideal)) (StableHlo.after (hostOps0b (F := Ideal)) (StableHlo.after (hostOps0a (F := Ideal)) Wv)))).trans (congr (congrArg gath1 h11_3) (congrArg srcOf h5_3))
  have h11_4 := (sc_v11 (StableHlo.after (hostOps0b' (F := Ideal)) (StableHlo.after (hostOps0b (F := Ideal)) (StableHlo.after (hostOps0a (F := Ideal)) Wv)))).trans h11_3
  have h6_4 := (sc_v6 (StableHlo.after (hostOps0b' (F := Ideal)) (StableHlo.after (hostOps0b (F := Ideal)) (StableHlo.after (hostOps0a (F := Ideal)) Wv)))).trans h6_3
  exact (sd_v26 (StableHlo.after (hostOps0c (F := Ideal)) (StableHlo.after (hostOps0b' (F := Ideal)) (StableHlo.after (hostOps0b (F := Ideal)) (StableHlo.after (hostOps0a (F := Ideal)) Wv))))).trans (congr (congrArg mulf h18_4) (congr (congrArg gath1 h11_4) (congrArg srcOf h6_4)))

end Cert.KernelIdeal.KValue

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.GcnLaw.lean ====
/-
  Aggregating neighbours before or after a linear projection: the two orders agree on real data.

  General facts on the extended reals, with no program in sight.  `Fin' x` (from the real-sums library) says that the extended
  real `x` is a real number.  Products, maxima and case splits of reals are reals.  THE LAW (`agg_project`): given real weights
  `c e`, real features `H e k` and a real column `W k`, and any selection `P` of the edges,

      ∑ k, (∑ e, [P e] c e · H e k) · W k  =  ∑ e, [P e] c e · (∑ k, H e k · W k).

  Over the reals this is only the exchange of two finite sums and distributivity.  On the extended reals multiplication does not
  distribute over a sum that holds both infinities, which is why every entry is asked to be a real: then both sides are the
  coercion of one and the same real double sum.
-/
import Idealize.ShloMosaic.PureOps.Ideal
import proofs.«171908_j39848706572466_2_alg».proof.Proof.LibRealSums

noncomputable section

open scoped BigOperators

namespace GcnLaw

open Idealize.ShloMosaic
open Cert.Lib.RealSums

/-! ### Closure of "is a real" -/

/-- The product of two reals is a real. -/
theorem fin'_mul {x y : EReal} (hx : Fin' x) (hy : Fin' y) : Fin' (x * y) := by
  obtain ⟨a, rfl⟩ := hx.exists_real
  obtain ⟨b, rfl⟩ := hy.exists_real
  rw [← EReal.coe_mul]; exact fin'_coe _

/-- The larger of two reals is a real (it is one of the two). -/
theorem fin'_max {x y : EReal} (hx : Fin' x) (hy : Fin' y) : Fin' (max x y) := by
  rcases max_choice x y with h | h <;> rw [h] <;> assumption

/-- A case split between two reals is a real. -/
theorem fin'_ite (p : Prop) [Decidable p] {x y : EReal} (hx : Fin' x) (hy : Fin' y) : Fin' (if p then x else y) := by
  split <;> assumption

/-- The all-zero binary32 word denotes the real number `0`. -/
theorem ofBits_zero : Ideal.ofBits .f32 0x00000000#32 = (0 : EReal) := by
  simp [Ideal.ofBits, Ideal.ieee]

/-- The all-zero binary32 word denotes a real. -/
theorem fin'_ofBits_zero : Fin' (Ideal.ofBits .f32 0x00000000#32) := by
  rw [ofBits_zero]; exact fin'_zero

/-! ### The law -/

section Law

variable {ιE ιK : Type*} [Fintype ιE] [Fintype ιK]

/-- THE LAW: aggregate-then-project is project-then-aggregate.  For real weights `c`, real features `H` and a real column `W`,
    summing the selected weighted rows first and then taking the inner product with `W` equals taking each row's inner product
    with `W` first and then summing the selected weighted results: both are the real double sum `∑ e ∑ k [P e] c e · H e k · W k`. -/
theorem agg_project (P : ιE → Prop) [DecidablePred P] (c : ιE → EReal) (H : ιE → ιK → EReal) (W : ιK → EReal)
    (hc : ∀ e, Fin' (c e)) (hH : ∀ e k, Fin' (H e k)) (hW : ∀ k, Fin' (W k)) :
    (∑ k : ιK, ((0 : EReal) + ∑ e : ιE, if P e then c e * H e k else 0) * W k)
      = (0 : EReal) + ∑ e : ιE, if P e then c e * (∑ k : ιK, H e k * W k) else 0 := by
  choose c' hc' using fun e => (hc e).exists_real
  choose H' hH' using fun e k => (hH e k).exists_real
  choose W' hW' using fun k => (hW k).exists_real
  have inner : ∀ k, (∑ e : ιE, if P e then c e * H e k else 0)
      = ((∑ e : ιE, if P e then c' e * H' e k else 0 : ℝ) : EReal) := by
    intro k
    rw [coe_sum]
    refine Finset.sum_congr rfl fun e _ => ?_
    by_cases hp : P e
    · rw [if_pos hp, if_pos hp, hc' e, hH' e k, EReal.coe_mul]
    · rw [if_neg hp, if_neg hp, EReal.coe_zero]
  have lhs : (∑ k : ιK, ((0 : EReal) + ∑ e : ιE, if P e then c e * H e k else 0) * W k)
      = ((∑ k : ιK, (∑ e : ιE, if P e then c' e * H' e k else 0) * W' k : ℝ) : EReal) := by
    rw [coe_sum]
    refine Finset.sum_congr rfl fun k _ => ?_
    rw [zero_add, inner k, hW' k, EReal.coe_mul]
  have dot : ∀ e, (∑ k : ιK, H e k * W k) = ((∑ k : ιK, H' e k * W' k : ℝ) : EReal) := by
    intro e
    rw [coe_sum]
    exact Finset.sum_congr rfl fun k _ => by rw [hH' e k, hW' k, EReal.coe_mul]
  have rhs : ((0 : EReal) + ∑ e : ιE, if P e then c e * (∑ k : ιK, H e k * W k) else 0)
      = ((∑ e : ιE, if P e then c' e * (∑ k : ιK, H' e k * W' k) else 0 : ℝ) : EReal) := by
    rw [zero_add, coe_sum]
    refine Finset.sum_congr rfl fun e _ => ?_
    by_cases hp : P e
    · rw [if_pos hp, if_pos hp, hc' e, dot e, EReal.coe_mul]
    · rw [if_neg hp, if_neg hp, EReal.coe_zero]
  rw [lhs, rhs]
  congr 1
  -- in the reals: distribute, exchange the two sums, and collect
  simp_rw [Finset.sum_mul]
  rw [Finset.sum_comm]
  refine Finset.sum_congr rfl fun e _ => ?_
  by_cases hp : P e
  · simp only [if_pos hp, Finset.mul_sum, mul_assoc]
  · simp only [if_neg hp, zero_mul, Finset.sum_const_zero]

/-- THE LAW with the binary32 zero word as the starting value of both accumulations (that word is the real `0`). -/
theorem agg_project_ofBits (P : ιE → Prop) [DecidablePred P] (c : ιE → EReal) (H : ιE → ιK → EReal) (W : ιK → EReal)
    (hc : ∀ e, Fin' (c e)) (hH : ∀ e k, Fin' (H e k)) (hW : ∀ k, Fin' (W k)) :
    (∑ k : ιK, (Ideal.ofBits .f32 0x00000000#32 + ∑ e : ιE, if P e then c e * H e k else 0) * W k)
      = Ideal.ofBits .f32 0x00000000#32 + ∑ e : ιE, if P e then c e * (∑ k : ιK, H e k * W k) else 0 := by
  rw [ofBits_zero]
  exact agg_project P c H W hc hH hW

/-! ### Realness of what the layers compute -/

/-- The aggregated value `0 + ∑ e, [P e] c e · H e k` of real data is a real. -/
theorem agg_real (P : ιE → Prop) [DecidablePred P] (c : ιE → EReal) (H : ιE → ιK → EReal)
    (hc : ∀ e, Fin' (c e)) (hH : ∀ e k, Fin' (H e k)) (k : ιK) :
    Fin' ((0 : EReal) + ∑ e : ιE, if P e then c e * H e k else 0) :=
  fin'_add fin'_zero (fin'_sum _ _ fun e => fin'_ite (P e) (fin'_mul (hc e) (hH e k)) fin'_zero)

/-- The same with the binary32 zero word as the starting value. -/
theorem agg_real_ofBits (P : ιE → Prop) [DecidablePred P] (c : ιE → EReal) (H : ιE → ιK → EReal)
    (hc : ∀ e, Fin' (c e)) (hH : ∀ e k, Fin' (H e k)) (k : ιK) :
    Fin' (Ideal.ofBits .f32 0x00000000#32 + ∑ e : ιE, if P e then c e * H e k else 0) := by
  rw [ofBits_zero]; exact agg_real P c H hc hH k

/-- An entry of a dense layer, an inner product of real rows plus a real bias, is a real. -/
theorem dense_real (X : ιK → EReal) (W : ιK → EReal) (b : EReal)
    (hX : ∀ k, Fin' (X k)) (hW : ∀ k, Fin' (W k)) (hb : Fin' b) :
    Fin' ((∑ k : ιK, X k * W k) + b) :=
  fin'_add (fin'_sum _ _ fun k => fin'_mul (hX k) (hW k)) hb

/-- The rectifier of a real (its maximum with the binary32 zero word, the real `0`) is a real. -/
theorem relu_real {v : EReal} (hv : Fin' v) : Fin' (max v (Ideal.ofBits .f32 0x00000000#32)) :=
  fin'_max hv fin'_ofBits_zero

end Law

end GcnLaw

end
-- ==== Proof.GcnModel.lean ====
/-
  A two-layer graph convolution, entry by entry, for any sizes.

  One aggregation step over a list of `E` edges: edge `e` takes row `src[e]` of an array `v` (the row number clamped into the
  array), scales it by the edge weight `nrm[e]`, and adds it into row `dst[e]` of an all-zero array; an edge whose `dst[e]` is not a
  row number is dropped.  At entry `(p, o)` this is `0 + ∑ e, [dst[e] = p] nrm[e] · v[src[e], o]` (`aggr_apply`).
  The row an edge reads does not depend on the width of `v`, so the same edges aggregate arrays of any width.

  One program rectifies the aggregated, biased first projection, aggregates THAT, and only then multiplies by the second weight
  matrix and adds the second bias; the other multiplies by the second weight matrix first and aggregates the product.  On real
  data the two agree (`output_eq`): aggregation is a finite real-linear combination of rows, and a matrix product on the right
  acts on each row separately.  The first layer is the same function on both sides (`hidden_eq`) and is real on real data
  (`hidden_real`).
-/
import proofs.«171908_j39848706572466_2_alg».proof.Proof.GcnSpec
import proofs.«171908_j39848706572466_2_alg».proof.Proof.LibScatterRows
import proofs.«171908_j39848706572466_2_alg».proof.Proof.LibSegments
import proofs.«171908_j39848706572466_2_alg».proof.Proof.GcnLaw
import Idealize.ShloMosaic.Lib.Pipeline.Value
import Idealize.ShloMosaic.Lib.ValueLayout

noncomputable section

open scoped BigOperators

namespace Cert.GcnModel

open Idealize.ShloMosaic Idealize.ShloMosaic.ValueIdx
open Cert.Lib.RealSums

variable {Nn E C : Nat}

/-- One aggregation step: the scatter-add, into zeros at the rows `dst`, of the rows `src` of `v` scaled by `nrm`. -/
def aggr (DS : ScatterDims ⟨2, ![Nn, C]⟩ ⟨2, ![E, 1]⟩ ⟨2, ![E, C]⟩) (DG : GatherDims ⟨2, ![Nn, C]⟩ ⟨2, ![E, 1]⟩ ⟨2, ![E, C]⟩)
    (hb0 : (⟨0, ![]⟩ : Shape).BroadcastsInDim ⟨2, ![Nn, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (nrm : FVec Ideal ⟨1, ![E]⟩ .f32) (dst src : IVec ⟨2, ![E, 1]⟩ 32) (v : FVec Ideal ⟨2, ![Nn, C]⟩ .f32) :
    FVec Ideal ⟨2, ![Nn, C]⟩ .f32 :=
  Host.scatterAdd (F := Ideal) DS (broadcastInDim ⟨2, ![Nn, C]⟩ ![] hb0 (constant (F := Ideal) ⟨0, ![]⟩ .f32 0x00000000#32)) dst
    (mulf (broadcastInDim ⟨2, ![E, C]⟩ ![0, 1] hb2 (broadcastInDim ⟨2, ![E, 1]⟩ ![0] hb1 nrm)) (Host.gather DG v src))

/-- The dimension numbers of a scatter of rows: the updates' axis 1 is the window axis, the operand's axis 0 is the one the row
    number addresses, and the row number is the length-1 vector on the scatter indices' axis 1. -/
structure RowScatter (DS : ScatterDims ⟨2, ![Nn, C]⟩ ⟨2, ![E, 1]⟩ ⟨2, ![E, C]⟩) : Prop where
  h1 : DS.updateWindowDims = [1]
  h2 : DS.insertedWindowDims = [0]
  h3 : DS.scatterDimsToOperandDims = [0]
  h4 : DS.indexVectorDim = 1

/-- The dimension numbers of a gather of rows: the result's axis 1 reads the operand's axis 1 in full, the operand's axis 0 is
    collapsed and is the one the row number addresses, and the row number is the length-1 vector on the start indices' axis 1. -/
structure RowGather (DG : GatherDims ⟨2, ![Nn, C]⟩ ⟨2, ![E, 1]⟩ ⟨2, ![E, C]⟩) : Prop where
  h1 : DG.offsetDims = [1]
  h2 : DG.collapsedSliceDims = [0]
  h3 : DG.operandBatchingDims = []
  h4 : DG.startIndicesBatchingDims = []
  h5 : DG.startIndexMap = [0]
  h6 : DG.indexVectorDim = 1
  h7 : DG.sliceSizes = ![1, C]

/-- The row an edge reads: its source word, read signed and clamped into the array's rows. It does not depend on the width. -/
def rowOf (hN : 0 < Nn) (src : IVec ⟨2, ![E, 1]⟩ 32) (e : Fin E) : Fin Nn :=
  ⟨min (src (ix2 e (0 : Fin 1))).toInt.toNat (Nn - 1), by omega⟩

/-- The edge weights, laid out as a column and repeated over the width, read at `(e, o)` the weight of edge `e`. -/
theorem weight_cols_apply (hb1 : (⟨1, ![E]⟩ : Shape).BroadcastsInDim ⟨2, ![E, 1]⟩ ![0])
    (hb2 : (⟨2, ![E, 1]⟩ : Shape).BroadcastsInDim ⟨2, ![E, C]⟩ ![0, 1]) (nrm : FVec Ideal ⟨1, ![E]⟩ .f32) (e : Fin E) (o : Fin C) :
    broadcastInDim ⟨2, ![E, C]⟩ ![0, 1] hb2 (broadcastInDim ⟨2, ![E, 1]⟩ ![0] hb1 nrm) (ix2 e o) = nrm (ix1 e) := by
  rw [broadcastInDim_apply ![0, 1] hb2 _ (ix2 e o) (ix2 e (0 : Fin 1)) (fun a => by
      match a with
      | ⟨0, _⟩ =>
        show e.val = if E = 1 then 0 else e.val
        split
        · have := e.isLt; omega
        · rfl
      | ⟨1, _⟩ => exact (if_pos rfl).symm),
    broadcastInDim_apply ![0] hb1 nrm (ix2 e (0 : Fin 1)) (ix1 e) (fun a => by
      match a with
      | ⟨0, _⟩ =>
        show e.val = if E = 1 then 0 else e.val
        split
        · have := e.isLt; omega
        · rfl)]

/-- THE AGGREGATION READ AT `(p, o)`: zero plus the sum, over the edges whose destination is row `p`, of the edge's weight times
    entry `o` of the row the edge reads. -/
theorem aggr_apply {DS : ScatterDims ⟨2, ![Nn, C]⟩ ⟨2, ![E, 1]⟩ ⟨2, ![E, C]⟩} {DG : GatherDims ⟨2, ![Nn, C]⟩ ⟨2, ![E, 1]⟩ ⟨2, ![E, C]⟩}
    (hS : RowScatter DS) (hG : RowGather DG) (hN : 0 < Nn)
    (hb0 : (⟨0, ![]⟩ : Shape).BroadcastsInDim ⟨2, ![Nn, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (nrm : FVec Ideal ⟨1, ![E]⟩ .f32) (dst src : IVec ⟨2, ![E, 1]⟩ 32) (v : FVec Ideal ⟨2, ![Nn, C]⟩ .f32)
    (p : Fin Nn) (o : Fin C) :
    aggr DS DG hb0 hb1 hb2 nrm dst src v (ix2 p o)
      = Ideal.ofBits .f32 0x00000000#32
        + ∑ e : Fin E, if (dst (ix2 e (0 : Fin 1))).toInt = (p.val : ℤ) then nrm (ix1 e) * v (ix2 (rowOf hN src e) o) else 0 := by
  unfold aggr
  rw [ScatterRows.scatterAdd_rows2_apply_of_dims DS hS.h1 hS.h2 hS.h3 hS.h4,
    broadcastInDim_apply ![] hb0 _ (ix2 p o) ix0 (fun a => a.elim0), constant_apply]
  refine congrArg (Ideal.ofBits .f32 0x00000000#32 + ·) (Finset.sum_congr rfl fun e _ => ?_)
  rw [mulf_apply, weight_cols_apply hb1 hb2 nrm e o,
    Segments.gather_rows_apply_of_dims hN DG hG.h1 hG.h2 hG.h3 hG.h4 hG.h5 hG.h6 hG.h7 v src e o]
  rfl

/-- Every entry of the array is a real number. -/
def AllReal {s : Shape} (v : FVec Ideal s .f32) : Prop := ∀ i, Fin' (v i)

/-! ## Layer 2: aggregating before or after the second projection -/

/-- THE BRIDGE. On real weights, real hidden features and a real second weight matrix, aggregating the hidden rows and then applying
    the second dense layer is applying the second projection to every row, aggregating the projected rows, and adding the bias:
    both hold at `(p, q)` the real number `∑ e, [dst[e] = p] nrm[e] · ∑ k, H[src[e], k] · W2[k, q]` plus `b2[q]`. The row an edge
    reads is the same on both sides because it does not depend on the width of the array read. -/
theorem output_eq {K : Nat}
    {DSK : ScatterDims ⟨2, ![Nn, K]⟩ ⟨2, ![E, 1]⟩ ⟨2, ![E, K]⟩} {DGK : GatherDims ⟨2, ![Nn, K]⟩ ⟨2, ![E, 1]⟩ ⟨2, ![E, K]⟩}
    {DSC : ScatterDims ⟨2, ![Nn, C]⟩ ⟨2, ![E, 1]⟩ ⟨2, ![E, C]⟩} {DGC : GatherDims ⟨2, ![Nn, C]⟩ ⟨2, ![E, 1]⟩ ⟨2, ![E, C]⟩}
    (hSK : RowScatter DSK) (hGK : RowGather DGK) (hSC : RowScatter DSC) (hGC : RowGather DGC) (hN : 0 < Nn)
    (hb0K : (⟨0, ![]⟩ : Shape).BroadcastsInDim ⟨2, ![Nn, K]⟩ ![])
    (hb1 : (⟨1, ![E]⟩ : Shape).BroadcastsInDim ⟨2, ![E, 1]⟩ ![0])
    (hb2K : (⟨2, ![E, 1]⟩ : Shape).BroadcastsInDim ⟨2, ![E, K]⟩ ![0, 1])
    (hb0C : (⟨0, ![]⟩ : Shape).BroadcastsInDim ⟨2, ![Nn, C]⟩ ![])
    (hb1' : (⟨1, ![E]⟩ : Shape).BroadcastsInDim ⟨2, ![E, 1]⟩ ![0])
    (hb2C : (⟨2, ![E, 1]⟩ : Shape).BroadcastsInDim ⟨2, ![E, C]⟩ ![0, 1])
    (D2 : DotDims ⟨2, ![Nn, K]⟩ ⟨2, ![K, C]⟩ ⟨2, ![Nn, C]⟩) (hD2 : D2 = DotDims.plain Nn K C)
    (hcb1 : (⟨1, ![C]⟩ : Shape).BroadcastsInDim ⟨2, ![1, C]⟩ ![1])
    (hcb2 : (⟨2, ![1, C]⟩ : Shape).BroadcastsInDim ⟨2, ![Nn, C]⟩ ![0, 1])
    (hsc2 : (⟨1, ![C]⟩ : Shape).ShapeCasts ⟨2, ![1, C]⟩)
    (nrm : FVec Ideal ⟨1, ![E]⟩ .f32) (dst src : IVec ⟨2, ![E, 1]⟩ 32)
    (H : FVec Ideal ⟨2, ![Nn, K]⟩ .f32) (W2 : FVec Ideal ⟨2, ![K, C]⟩ .f32) (b2 : FVec Ideal ⟨1, ![C]⟩ .f32)
    (hnrm : AllReal nrm) (hH : AllReal H) (hW : AllReal W2) :
    Cert.Lib.DenseLayer.affine (aggr DSK DGK hb0K hb1 hb2K nrm dst src H) W2 (shapeCast ⟨2, ![1, C]⟩ b2 hsc2)
      = addf (aggr DSC DGC hb0C hb1' hb2C nrm dst src (Host.dotGeneral (F := Ideal) D2 none H W2))
          (broadcastInDim ⟨2, ![Nn, C]⟩ ![0, 1] hcb2 (broadcastInDim ⟨2, ![1, C]⟩ ![1] hcb1 b2)) := by
  funext i
  obtain ⟨p, q, rfl⟩ : ∃ (p : Fin Nn) (q : Fin C), i = ix2 p q := ⟨i 0, i 1, eq_ix2 i⟩
  -- the product of the second layer at one entry is the inner product of a row of `H` with column `q` of `W2`
  have hdot : ∀ r : Fin Nn, Host.dotGeneral (F := Ideal) D2 none H W2 (ix2 r q) = ∑ k : Fin K, H (ix2 r k) * W2 (ix2 k q) :=
    fun r => Cert.Lib.DotColsHost.dotGeneral_cols_apply D2 hD2 none .single H W2 r q
  rw [Cert.Lib.DenseLayer.affine_apply, addf_apply, Cert.Lib.DenseLayer.bias_rows_apply hcb1 hcb2 b2 p q,
    Cert.Lib.DenseLayer.bias_cast_apply hsc2 b2 q, aggr_apply hSC hGC hN]
  refine congrArg (· + b2 (ix1 q)) ?_
  simp only [aggr_apply hSK hGK hN, hdot]
  exact GcnLaw.agg_project_ofBits (fun e : Fin E => (dst (ix2 e (0 : Fin 1))).toInt = (p.val : ℤ)) (fun e => nrm (ix1 e))
    (fun e k => H (ix2 (rowOf hN src e) k)) (fun k => W2 (ix2 k q)) (fun e => hnrm _) (fun e k => hH _) (fun k => hW _)

/-! ## Layer 1: one function on both sides, and real on real data -/

section Layer1
variable {F0 K : Nat}

/-- The first layer's projection, spelled entry by entry, is the host's matrix product. -/
theorem proj_eq_dotGeneral (D : DotDims ⟨2, ![Nn, F0]⟩ ⟨2, ![F0, K]⟩ ⟨2, ![Nn, K]⟩) (hD : D = DotDims.plain Nn F0 K)
    (X : FVec Ideal ⟨2, ![Nn, F0]⟩ .f32) (W1 : FVec Ideal ⟨2, ![F0, K]⟩ .f32) :
    Cert.GcnSpec.proj X W1 = Host.dotGeneral (F := Ideal) D none X W1 := by
  funext i
  obtain ⟨r, q, rfl⟩ : ∃ (r : Fin Nn) (q : Fin K), i = ix2 r q := ⟨i 0, i 1, eq_ix2 i⟩
  rw [Cert.GcnSpec.proj_apply]
  exact (Cert.Lib.DotColsHost.dotGeneral_cols_apply D hD none .single X W1 r q).symm

/-- The hidden layer: the aggregated first projection plus the bias row, rectified, is the host's spelling of it — the
    aggregated host product, plus the bias vector broadcast to a row and over the rows, in maximum with a broadcast zero. -/
theorem hidden_eq (DS : ScatterDims ⟨2, ![Nn, K]⟩ ⟨2, ![E, 1]⟩ ⟨2, ![E, K]⟩) (DG : GatherDims ⟨2, ![Nn, K]⟩ ⟨2, ![E, 1]⟩ ⟨2, ![E, K]⟩)
    (hb0 : (⟨0, ![]⟩ : Shape).BroadcastsInDim ⟨2, ![Nn, K]⟩ ![])
    (hb1 : (⟨1, ![E]⟩ : Shape).BroadcastsInDim ⟨2, ![E, 1]⟩ ![0])
    (hb2 : (⟨2, ![E, 1]⟩ : Shape).BroadcastsInDim ⟨2, ![E, K]⟩ ![0, 1])
    (D : DotDims ⟨2, ![Nn, F0]⟩ ⟨2, ![F0, K]⟩ ⟨2, ![Nn, K]⟩) (hD : D = DotDims.plain Nn F0 K)
    (hbb1 : (⟨1, ![K]⟩ : Shape).BroadcastsInDim ⟨2, ![1, K]⟩ ![1])
    (hbb2 : (⟨2, ![1, K]⟩ : Shape).BroadcastsInDim ⟨2, ![Nn, K]⟩ ![0, 1])
    (hbz : (⟨0, ![]⟩ : Shape).BroadcastsInDim ⟨2, ![Nn, K]⟩ ![])
    (hsc : (⟨1, ![K]⟩ : Shape).ShapeCasts ⟨2, ![1, K]⟩)
    (nrm : FVec Ideal ⟨1, ![E]⟩ .f32) (dst src : IVec ⟨2, ![E, 1]⟩ 32)
    (X : FVec Ideal ⟨2, ![Nn, F0]⟩ .f32) (W1 : FVec Ideal ⟨2, ![F0, K]⟩ .f32) (b1 : FVec Ideal ⟨1, ![K]⟩ .f32) :
    Cert.GcnSpec.biasRelu (aggr DS DG hb0 hb1 hb2 nrm dst src (Cert.GcnSpec.proj X W1)) (shapeCast ⟨2, ![1, K]⟩ b1 hsc)
      = maximumf (addf (aggr DS DG hb0 hb1 hb2 nrm dst src (Host.dotGeneral (F := Ideal) D none X W1))
            (broadcastInDim ⟨2, ![Nn, K]⟩ ![0, 1] hbb2 (broadcastInDim ⟨2, ![1, K]⟩ ![1] hbb1 b1)))
          (broadcastInDim ⟨2, ![Nn, K]⟩ ![] hbz (constant (F := Ideal) ⟨0, ![]⟩ .f32 0x00000000#32)) := by
  rw [proj_eq_dotGeneral D hD X W1]
  funext i
  obtain ⟨p, q, rfl⟩ : ∃ (p : Fin Nn) (q : Fin K), i = ix2 p q := ⟨i 0, i 1, eq_ix2 i⟩
  rw [Cert.GcnSpec.biasRelu_apply, maximumf_apply, addf_apply, Cert.Lib.DenseLayer.bias_rows_apply hbb1 hbb2 b1 p q,
    Cert.Lib.DenseLayer.bias_cast_apply hsc b1 q, broadcastInDim_apply ![] hbz _ (ix2 p q) ix0 (fun a => a.elim0), constant_apply]

/-- On real weights, features, first weight matrix and bias, every entry of the hidden layer is a real: a rectified sum of a
    finite real combination of real inner products and a real bias. -/
theorem hidden_real {DS : ScatterDims ⟨2, ![Nn, K]⟩ ⟨2, ![E, 1]⟩ ⟨2, ![E, K]⟩} {DG : GatherDims ⟨2, ![Nn, K]⟩ ⟨2, ![E, 1]⟩ ⟨2, ![E, K]⟩}
    (hS : RowScatter DS) (hG : RowGather DG) (hN : 0 < Nn)
    (hb0 : (⟨0, ![]⟩ : Shape).BroadcastsInDim ⟨2, ![Nn, K]⟩ ![])
    (hb1 : (⟨1, ![E]⟩ : Shape).BroadcastsInDim ⟨2, ![E, 1]⟩ ![0])
    (hb2 : (⟨2, ![E, 1]⟩ : Shape).BroadcastsInDim ⟨2, ![E, K]⟩ ![0, 1])
    (hsc : (⟨1, ![K]⟩ : Shape).ShapeCasts ⟨2, ![1, K]⟩)
    (nrm : FVec Ideal ⟨1, ![E]⟩ .f32) (dst src : IVec ⟨2, ![E, 1]⟩ 32)
    (X : FVec Ideal ⟨2, ![Nn, F0]⟩ .f32) (W1 : FVec Ideal ⟨2, ![F0, K]⟩ .f32) (b1 : FVec Ideal ⟨1, ![K]⟩ .f32)
    (hnrm : AllReal nrm) (hX : AllReal X) (hW : AllReal W1) (hb : AllReal b1) :
    AllReal (Cert.GcnSpec.biasRelu (aggr DS DG hb0 hb1 hb2 nrm dst src (Cert.GcnSpec.proj X W1)) (shapeCast ⟨2, ![1, K]⟩ b1 hsc)) := by
  intro i
  obtain ⟨p, q, rfl⟩ : ∃ (p : Fin Nn) (q : Fin K), i = ix2 p q := ⟨i 0, i 1, eq_ix2 i⟩
  rw [Cert.GcnSpec.biasRelu_apply, aggr_apply hS hG hN, Cert.Lib.DenseLayer.bias_cast_apply hsc b1 q]
  refine GcnLaw.relu_real (fin'_add ?_ (hb _))
  refine GcnLaw.agg_real_ofBits (fun e : Fin E => (dst (ix2 e (0 : Fin 1))).toInt = (p.val : ℤ)) (fun e => nrm (ix1 e))
    (fun e k => Cert.GcnSpec.proj X W1 (ix2 (rowOf hN src e) k)) (fun e => hnrm _) (fun e k => ?_) q
  rw [Cert.GcnSpec.proj_apply]
  exact fin'_sum _ _ fun j => GcnLaw.fin'_mul (hX _) (hW _)

end Layer1

end Cert.GcnModel

end
-- ==== Proof.KernelTerm.lean ====
/-
  The idealized kernel's result as one term of six arrays.

  `aggK nrm dstc srcc v` is one aggregation step as the kernel's host operations spell it: gather the source rows of v,
  scale them by the edge weights, segment-sum them into the destination rows from zero.  The hidden layer is the rectified,
  biased aggregate of x · W1; the result is the dense layer (W2, b2) of the aggregate of the hidden layer.  The edge weights
  and the two index columns are named by the reference's stages of the same operations on edge_index, so that both
  programs speak of one weight vector, one destination column and one source column.
-/
import proofs.«171908_j39848706572466_2_alg».proof.KernelIdeal
import proofs.«171908_j39848706572466_2_alg».proof.Proof.Gen.KernelIdeal
import proofs.«171908_j39848706572466_2_alg».proof.Proof.Gen.ReferenceIdeal.Read
import proofs.«171908_j39848706572466_2_alg».proof.Proof.GcnModel

noncomputable section

namespace Cert.KernelIdeal.KTerm

open Cert.KernelIdeal Cert.KernelIdeal.Gen
open Idealize.ShloMosaic Idealize.ShloMosaic.ValueIdx
open Cert.GcnSpec Cert.Lib.DenseLayer

/-- One aggregation step over 64 features. -/
def aggK (nrm : FVec Ideal S1700000 .f32) (dstc srcc : IVec S1700000x1 32) (v : FVec Ideal S100000x64 .f32) : FVec Ideal S100000x64 .f32 :=
  Cert.GcnModel.aggr scatter_S100000x64_S1700000x1_S1700000x64_1_0_0_1 gather_S100000x64_S1700000x1_S1700000x64_1_0_n_n_0_1_164
    bcast_S_S100000x64 bcast_S1700000_S1700000x1_0 bcast_S1700000x1_S1700000x64_0_1 nrm dstc srcc v

variable (x0 : FVec Ideal S100000x128 .f32) (x1 : IVec S2x1600000 32) (x2 : FVec Ideal S128x64 .f32) (x3 : FVec Ideal S64 .f32)
  (x4 : FVec Ideal S64x128 .f32) (x5 : FVec Ideal S128 .f32)

/-- The hidden layer: the rectified, biased aggregate of x · W1. -/
def hiddenOf : FVec Ideal S100000x64 .f32 :=
  biasRelu (aggK (Cert.ReferenceIdeal.Read.val_main_v26 (F := Ideal) x1) (Cert.ReferenceIdeal.Read.val_main_v39 (F := Ideal) x1)
      (Cert.ReferenceIdeal.Read.val_main_v34 (F := Ideal) x1) (proj x0 x2))
    (shapeCast S1x64 x3 shapeCasts_S64_S1x64)

/-- The result: the dense layer (W2, b2) of the aggregate of the hidden layer. -/
def resultOf : FVec Ideal S100000x128 .f32 :=
  affine (aggK (Cert.ReferenceIdeal.Read.val_main_v26 (F := Ideal) x1) (Cert.ReferenceIdeal.Read.val_main_v39 (F := Ideal) x1)
      (Cert.ReferenceIdeal.Read.val_main_v34 (F := Ideal) x1) (hiddenOf x0 x1 x2 x3))
    x4 (shapeCast S1x128 x5 shapeCasts_S128_S1x128)

end Cert.KernelIdeal.KTerm

end
-- ==== Proof.KernelHost1.lean ====
/-
  The second stretch of host operations, from any contents: one aggregation step of the first grid's output, the first
  bias as a row, and the buffers it leaves alone.
-/
import proofs.«171908_j39848706572466_2_alg».proof.Proof.Gen.KernelIdeal.Launch
import proofs.«171908_j39848706572466_2_alg».proof.Proof.KernelCols
import proofs.«171908_j39848706572466_2_alg».proof.Proof.KernelTerm

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem
open Cert.KernelIdeal.KTerm

variable (Wv : Valuation τ sig (Elt Ideal))

set_option maxHeartbeats 4000000 in
theorem s1_v40 : StableHlo.after hostOps1 Wv (Proc.devRef .tc main_call0_v40)
    = aggK (Wv (Proc.devRef .tc main_call0_v26)) (colOf (Wv (Proc.devRef .tc main_call0_v6))) (srcOf (Wv (Proc.devRef .tc main_call0_v5))) (Wv (Proc.devRef .tc main_call0_v27)) := by
  after_results
  try simp only [cast_eq]
  rfl
set_option maxHeartbeats 4000000 in
theorem s1_v41 : StableHlo.after hostOps1 Wv (Proc.devRef .tc main_call0_v41) = shapeCast S1x64 (Wv (Proc.devRef .tc main_arg3)) shapeCasts_S64_S1x64 := by
  after_results
  try simp only [cast_eq]
  rfl
set_option maxHeartbeats 4000000 in
theorem s1_v26 : StableHlo.after hostOps1 Wv (Proc.devRef .tc main_call0_v26) = (Wv (Proc.devRef .tc main_call0_v26)) := by
  after_results <;> rfl
set_option maxHeartbeats 4000000 in
theorem s1_v5 : StableHlo.after hostOps1 Wv (Proc.devRef .tc main_call0_v5) = (Wv (Proc.devRef .tc main_call0_v5)) := by
  after_results <;> rfl
set_option maxHeartbeats 4000000 in
theorem s1_v6 : StableHlo.after hostOps1 Wv (Proc.devRef .tc main_call0_v6) = (Wv (Proc.devRef .tc main_call0_v6)) := by
  after_results <;> rfl
set_option maxHeartbeats 4000000 in
theorem s1_arg4 : StableHlo.after hostOps1 Wv (Proc.devRef .tc main_arg4) = (Wv (Proc.devRef .tc main_arg4)) := by
  after_results <;> rfl
set_option maxHeartbeats 4000000 in
theorem s1_arg5 : StableHlo.after hostOps1 Wv (Proc.devRef .tc main_arg5) = (Wv (Proc.devRef .tc main_arg5)) := by
  after_results <;> rfl

end Cert.KernelIdeal.KValue

end
-- ==== Proof.KernelHost2.lean ====
/-
  The third stretch of host operations, from any contents: one aggregation step of the hidden layer, the last bias as a
  row, and the weight it leaves alone.
-/
import proofs.«171908_j39848706572466_2_alg».proof.Proof.Gen.KernelIdeal.Launch
import proofs.«171908_j39848706572466_2_alg».proof.Proof.KernelCols
import proofs.«171908_j39848706572466_2_alg».proof.Proof.KernelTerm

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem
open Cert.KernelIdeal.KTerm

variable (Wv : Valuation τ sig (Elt Ideal))

set_option maxHeartbeats 4000000 in
theorem s2_v55 : StableHlo.after hostOps2 Wv (Proc.devRef .tc main_call0_v55)
    = aggK (Wv (Proc.devRef .tc main_call0_v26)) (colOf (Wv (Proc.devRef .tc main_call0_v6))) (srcOf (Wv (Proc.devRef .tc main_call0_v5))) (Wv (Proc.devRef .tc main_call0_v42)) := by
  after_results
  try simp only [cast_eq]
  rfl
set_option maxHeartbeats 4000000 in
theorem s2_v56 : StableHlo.after hostOps2 Wv (Proc.devRef .tc main_call0_v56) = shapeCast S1x128 (Wv (Proc.devRef .tc main_arg5)) shapeCasts_S128_S1x128 := by
  after_results
  try simp only [cast_eq]
  rfl
set_option maxHeartbeats 4000000 in
theorem s2_arg4 : StableHlo.after hostOps2 Wv (Proc.devRef .tc main_arg4) = (Wv (Proc.devRef .tc main_arg4)) := by
  after_results <;> rfl

end Cert.KernelIdeal.KValue

end
-- ==== Proof.KernelNorm.lean ====
/-
  The kernel's edge weights and row-number columns are the reference's stages of the same operations on edge_index.

  Both programs compute them by the same sequence of operations; the two texts differ only in which program's names
  spell the shapes and the dimension numbers.  The equalities are stated piece by piece — row numbers, columns, the
  inverse square roots of the degrees, the weights — so that each is an unfolding of names.
-/
import proofs.«171908_j39848706572466_2_alg».proof.Proof.KernelCols
import proofs.«171908_j39848706572466_2_alg».proof.Proof.Gen.ReferenceIdeal.Read

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem

/-! ## The kernel's weights and index vectors are the reference's stages -/

section Names
variable (x1 : IVec S2x1600000 32)

theorem v5K_eq : v5K x1 = Cert.ReferenceIdeal.Read.val_main_v5 (F := Ideal) x1 := rfl
theorem v6K_eq : v6K x1 = Cert.ReferenceIdeal.Read.val_main_v6 (F := Ideal) x1 := rfl
theorem colOf_v6 : colOf (Cert.ReferenceIdeal.Read.val_main_v6 (F := Ideal) x1) = Cert.ReferenceIdeal.Read.val_main_v39 (F := Ideal) x1 := rfl
theorem colOf_v6' : colOf (Cert.ReferenceIdeal.Read.val_main_v6 (F := Ideal) x1) = Cert.ReferenceIdeal.Read.val_main_v9 (F := Ideal) x1 := rfl
theorem srcOf_v5 : srcOf (Cert.ReferenceIdeal.Read.val_main_v5 (F := Ideal) x1) = Cert.ReferenceIdeal.Read.val_main_v34 (F := Ideal) x1 := rfl
theorem srcOf_v5' : srcOf (Cert.ReferenceIdeal.Read.val_main_v5 (F := Ideal) x1) = Cert.ReferenceIdeal.Read.val_main_v17 (F := Ideal) x1 := rfl
theorem srcOf_v6' : srcOf (Cert.ReferenceIdeal.Read.val_main_v6 (F := Ideal) x1) = Cert.ReferenceIdeal.Read.val_main_v24 (F := Ideal) x1 := rfl
theorem scatter1_eq : scatter_S100000_S1700000x1_S1700000_n_0_0_1 = Cert.ReferenceIdeal.scatter_S100000_S1700000x1_S1700000_n_0_0_1 := rfl
theorem gather1_eq : gather_S100000_S1700000x1_S1700000_n_0_n_n_0_1_1 = Cert.ReferenceIdeal.gather_S100000_S1700000x1_S1700000_n_0_n_n_0_1_1 := rfl
theorem zeros_eq : broadcastInDim S100000 ![] bcast_S_S100000 (constant (F := Ideal) S_ .f32 0x00000000#32) = Cert.ReferenceIdeal.Read.val_main_v8 (F := Ideal) := rfl
theorem ones_eq : broadcastInDim S1700000 ![] bcast_S_S1700000 (constant (F := Ideal) S_ .f32 0x3F800000#32) = Cert.ReferenceIdeal.Read.val_main_v7 (F := Ideal) := rfl

/-- The inverse square roots of the degrees are the reference's. -/
theorem dinvK_eq : dinvK x1 = Cert.ReferenceIdeal.Read.val_main_v11 (F := Ideal) x1 := by
  unfold dinvK dinvOf
  rw [v6K_eq, colOf_v6', scatter1_eq, zeros_eq, ones_eq]
  rfl

/-- The edge weights are the reference's. -/
theorem nrmK_eq : nrmK x1 = Cert.ReferenceIdeal.Read.val_main_v26 (F := Ideal) x1 := by
  unfold nrmK nrmOf gath1
  rw [dinvK_eq, v5K_eq, v6K_eq, srcOf_v5', srcOf_v6', gather1_eq]
  rfl

end Names

end Cert.KernelIdeal.KValue

end
-- ==== Proof.KernelValue.lean ====
/-
  The idealized kernel's result is its term of the six argument arrays.

  Between the grids the program runs host operations: the edge weights and the two vectors of row numbers (before the
  first grid), then twice one aggregation step.  Reading the buffer contents back through the six segments: the first
  grid's output is the product x · W1, the second's the hidden layer (the rectified biased aggregate of it), and the
  result is the dense layer (W2, b2) of the aggregate of the hidden layer.  A stretch's results are read from ANY contents
  first, then at the contents the previous segment leaves; the weights and row numbers are named by the reference's
  stages.
-/
import proofs.«171908_j39848706572466_2_alg».proof.Proof.KernelRegions
import proofs.«171908_j39848706572466_2_alg».proof.Proof.KernelHost0
import proofs.«171908_j39848706572466_2_alg».proof.Proof.KernelHost0w
import proofs.«171908_j39848706572466_2_alg».proof.Proof.KernelHost1
import proofs.«171908_j39848706572466_2_alg».proof.Proof.KernelHost2
import proofs.«171908_j39848706572466_2_alg».proof.Proof.KernelNorm
import proofs.«171908_j39848706572466_2_alg».proof.Proof.KernelTerm

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem
open Cert.KernelIdeal.KRegions Cert.KernelIdeal.KTerm Cert.GcnSpec Cert.Lib.DenseLayer

/-! ## The buffer contents at each boundary, read back -/

section Run
variable (m : (ℓ : Loc nD τ sig) → Buf (Elt Ideal) ℓ) (ρ : Dev nD → PrngReg) (c : Dev nD)

theorem W1_v26 : W1 m ρ c (Proc.devRef .tc main_call0_v26) = (Cert.ReferenceIdeal.Read.val_main_v26 (F := Ideal) (m ((c : Thread nD τ).loc main_arg1))) := (s0_v26 (W0 m ρ c)).trans (nrmK_eq _)
theorem W1_v5 : W1 m ρ c (Proc.devRef .tc main_call0_v5) = (Cert.ReferenceIdeal.Read.val_main_v5 (F := Ideal) (m ((c : Thread nD τ).loc main_arg1))) := (s0_v5 (W0 m ρ c)).trans (v5K_eq _)
theorem W1_v6 : W1 m ρ c (Proc.devRef .tc main_call0_v6) = (Cert.ReferenceIdeal.Read.val_main_v6 (F := Ideal) (m ((c : Thread nD τ).loc main_arg1))) := (s0_v6 (W0 m ρ c)).trans (v6K_eq _)
theorem W1_arg0 : W1 m ρ c (Proc.devRef .tc main_arg0) = (m ((c : Thread nD τ).loc main_arg0)) := s0_arg0 (W0 m ρ c)
theorem W1_arg2 : W1 m ρ c (Proc.devRef .tc main_arg2) = (m ((c : Thread nD τ).loc main_arg2)) := s0_arg2 (W0 m ρ c)
theorem W1_arg3 : W1 m ρ c (Proc.devRef .tc main_arg3) = (m ((c : Thread nD τ).loc main_arg3)) := s0_arg3 (W0 m ρ c)
theorem W1_arg4 : W1 m ρ c (Proc.devRef .tc main_arg4) = (m ((c : Thread nD τ).loc main_arg4)) := s0_arg4 (W0 m ρ c)
theorem W1_arg5 : W1 m ρ c (Proc.devRef .tc main_arg5) = (m ((c : Thread nD τ).loc main_arg5)) := s0_arg5 (W0 m ρ c)

theorem W2_v26 : W2 m ρ c (Proc.devRef .tc main_call0_v26) = (Cert.ReferenceIdeal.Read.val_main_v26 (F := Ideal) (m ((c : Thread nD τ).loc main_arg1))) := (W2_of_ne m ρ c main_call0_v26 (by decide)).trans (W1_v26 m ρ c)
theorem W2_v5 : W2 m ρ c (Proc.devRef .tc main_call0_v5) = (Cert.ReferenceIdeal.Read.val_main_v5 (F := Ideal) (m ((c : Thread nD τ).loc main_arg1))) := (W2_of_ne m ρ c main_call0_v5 (by decide)).trans (W1_v5 m ρ c)
theorem W2_v6 : W2 m ρ c (Proc.devRef .tc main_call0_v6) = (Cert.ReferenceIdeal.Read.val_main_v6 (F := Ideal) (m ((c : Thread nD τ).loc main_arg1))) := (W2_of_ne m ρ c main_call0_v6 (by decide)).trans (W1_v6 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
/-- The first grid's output: the product x · W1. -/
theorem W2_v27 : W2 m ρ c (Proc.devRef .tc main_call0_v27) = proj (m ((c : Thread nD τ).loc main_arg0)) (m ((c : Thread nD τ).loc main_arg2)) :=
  (W2_arr m ρ c 2).trans ((final0 (V1 m ρ) c).trans (congr (congrArg proj (W1_arg0 m ρ c)) (W1_arg2 m ρ c)))

theorem W3_v40 : W3 m ρ c (Proc.devRef .tc main_call0_v40) = aggK (Cert.ReferenceIdeal.Read.val_main_v26 (F := Ideal) (m ((c : Thread nD τ).loc main_arg1))) (Cert.ReferenceIdeal.Read.val_main_v39 (F := Ideal) (m ((c : Thread nD τ).loc main_arg1))) (Cert.ReferenceIdeal.Read.val_main_v34 (F := Ideal) (m ((c : Thread nD τ).loc main_arg1))) (proj (m ((c : Thread nD τ).loc main_arg0)) (m ((c : Thread nD τ).loc main_arg2))) :=
  (s1_v40 (W2 m ρ c)).trans (congr (congr (congr (congrArg aggK (W2_v26 m ρ c)) ((congrArg colOf (W2_v6 m ρ c)).trans (colOf_v6 _)))
    ((congrArg srcOf (W2_v5 m ρ c)).trans (srcOf_v5 _))) (W2_v27 m ρ c))
theorem W3_v41 : W3 m ρ c (Proc.devRef .tc main_call0_v41) = shapeCast S1x64 (m ((c : Thread nD τ).loc main_arg3)) shapeCasts_S64_S1x64 :=
  (s1_v41 (W2 m ρ c)).trans (congrArg (fun a => shapeCast S1x64 a shapeCasts_S64_S1x64) (W2_arg3 m ρ c))
theorem W3_v26 : W3 m ρ c (Proc.devRef .tc main_call0_v26) = (Cert.ReferenceIdeal.Read.val_main_v26 (F := Ideal) (m ((c : Thread nD τ).loc main_arg1))) := (s1_v26 (W2 m ρ c)).trans (W2_v26 m ρ c)
theorem W3_v5 : W3 m ρ c (Proc.devRef .tc main_call0_v5) = (Cert.ReferenceIdeal.Read.val_main_v5 (F := Ideal) (m ((c : Thread nD τ).loc main_arg1))) := (s1_v5 (W2 m ρ c)).trans (W2_v5 m ρ c)
theorem W3_v6 : W3 m ρ c (Proc.devRef .tc main_call0_v6) = (Cert.ReferenceIdeal.Read.val_main_v6 (F := Ideal) (m ((c : Thread nD τ).loc main_arg1))) := (s1_v6 (W2 m ρ c)).trans (W2_v6 m ρ c)
theorem W3_arg4 : W3 m ρ c (Proc.devRef .tc main_arg4) = (m ((c : Thread nD τ).loc main_arg4)) := (s1_arg4 (W2 m ρ c)).trans (W2_arg4 m ρ c)
theorem W3_arg5 : W3 m ρ c (Proc.devRef .tc main_arg5) = (m ((c : Thread nD τ).loc main_arg5)) := (s1_arg5 (W2 m ρ c)).trans (W2_arg5 m ρ c)

/-- The second grid's output: the hidden layer. -/
theorem W4_v42 : W4 m ρ c (Proc.devRef .tc main_call0_v42) = hiddenOf (m ((c : Thread nD τ).loc main_arg0)) (m ((c : Thread nD τ).loc main_arg1)) (m ((c : Thread nD τ).loc main_arg2)) (m ((c : Thread nD τ).loc main_arg3)) :=
  (W4_arr m ρ c 2).trans ((final1 (V3 m ρ) c).trans (congr (congrArg biasRelu (W3_v40 m ρ c)) (W3_v41 m ρ c)))
theorem W4_v26 : W4 m ρ c (Proc.devRef .tc main_call0_v26) = (Cert.ReferenceIdeal.Read.val_main_v26 (F := Ideal) (m ((c : Thread nD τ).loc main_arg1))) := (W4_of_ne m ρ c main_call0_v26 (by decide)).trans (W3_v26 m ρ c)
theorem W4_v5 : W4 m ρ c (Proc.devRef .tc main_call0_v5) = (Cert.ReferenceIdeal.Read.val_main_v5 (F := Ideal) (m ((c : Thread nD τ).loc main_arg1))) := (W4_of_ne m ρ c main_call0_v5 (by decide)).trans (W3_v5 m ρ c)
theorem W4_v6 : W4 m ρ c (Proc.devRef .tc main_call0_v6) = (Cert.ReferenceIdeal.Read.val_main_v6 (F := Ideal) (m ((c : Thread nD τ).loc main_arg1))) := (W4_of_ne m ρ c main_call0_v6 (by decide)).trans (W3_v6 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

theorem W5_v55 : W5 m ρ c (Proc.devRef .tc main_call0_v55)
    = aggK (Cert.ReferenceIdeal.Read.val_main_v26 (F := Ideal) (m ((c : Thread nD τ).loc main_arg1))) (Cert.ReferenceIdeal.Read.val_main_v39 (F := Ideal) (m ((c : Thread nD τ).loc main_arg1))) (Cert.ReferenceIdeal.Read.val_main_v34 (F := Ideal) (m ((c : Thread nD τ).loc main_arg1))) (hiddenOf (m ((c : Thread nD τ).loc main_arg0)) (m ((c : Thread nD τ).loc main_arg1)) (m ((c : Thread nD τ).loc main_arg2)) (m ((c : Thread nD τ).loc main_arg3))) :=
  (s2_v55 (W4 m ρ c)).trans (congr (congr (congr (congrArg aggK (W4_v26 m ρ c)) ((congrArg colOf (W4_v6 m ρ c)).trans (colOf_v6 _)))
    ((congrArg srcOf (W4_v5 m ρ c)).trans (srcOf_v5 _))) (W4_v42 m ρ c))
theorem W5_v56 : W5 m ρ c (Proc.devRef .tc main_call0_v56) = shapeCast S1x128 (m ((c : Thread nD τ).loc main_arg5)) shapeCasts_S128_S1x128 :=
  (s2_v56 (W4 m ρ c)).trans (congrArg (fun a => shapeCast S1x128 a shapeCasts_S128_S1x128) (W4_arg5 m ρ c))
theorem W5_arg4 : W5 m ρ c (Proc.devRef .tc main_arg4) = (m ((c : Thread nD τ).loc main_arg4)) := (s2_arg4 (W4 m ρ c)).trans (W4_arg4 m ρ c)

/-- THE RESULT: after the last grid the result array holds the kernel's term of the six arguments. -/
theorem W6_v0 : W6 m ρ c (Proc.devRef .tc main_v0) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 3).trans ((final2 (V5 m ρ) c).trans
    (congr (congr (congrArg affine (W5_v55 m ρ c)) (W5_arg4 m ρ c)) (W5_v56 m ρ c)))

end Run

end Cert.KernelIdeal.KValue

end
-- ==== Proof.NormReal.lean ====
/-
  The edge weights of the reference are real numbers.

  The reference appends to the list of edges one self-loop per node: the destination list is the second
  row of the edge array followed by the node numbers 0, 1, …, 99999. The degree of a node is the number
  of entries of that list equal to it — a scatter-add of ones into zeros — and so is a real number at least
  one, the node's own self-loop being counted. Its inverse square root is then a real number, and the weight
  of an edge, the product of the inverse square roots of the degrees of two nodes, is a real number too.
-/
import proofs.«171908_j39848706572466_2_alg».proof.Proof.Gen.ReferenceIdeal.Read
import proofs.«171908_j39848706572466_2_alg».proof.Proof.LibSegments
import proofs.«171908_j39848706572466_2_alg».proof.Proof.LibRealSums
import proofs.«171908_j39848706572466_2_alg».proof.Proof.GcnLaw

noncomputable section

open scoped BigOperators

namespace Cert.ReferenceIdeal.NormReal

open Cert.ReferenceIdeal Cert.ReferenceIdeal.Gen Idealize.ShloMosaic Idealize.ShloMosaic.TcCoe Idealize.SL.Sem Idealize.ShloMosaic.StableHlo
open Idealize.ShloMosaic.ValueIdx
open Cert.Lib.RealSums

/-! ## Counting into zeros, for any sizes -/

/-- A scatter-add of ones into zeros, read at a position n that at least one update lands on, is a real
    number at least one: it is the number of updates whose position is n. -/
theorem scatter_ones_real_pos {N E w : Nat} (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (hx : ∀ i, x i = 0) (hu : ∀ i, u i = 1) (n : Fin N)
    (hself : ∃ e : Fin E, (idx (ix2 e (0 : Fin 1))).toInt = (n.val : ℤ)) :
    ∃ r : ℝ, 1 ≤ r ∧ Host.scatterAdd (F := Ideal) (φ := .f32) D x idx u (ix1 n) = (r : EReal) := by
  rw [Segments.scatterAdd_rows1_apply_of_dims D h1 h2 h3 h4, hx]
  simp only [hu]
  exact Segments.degree_real_pos idx n hself

/-! ## The reference's degrees, their inverse square roots, and the edge weights -/

/-- The degree of node n — the number of entries of the destination list equal to n — is a real number at
    least one: entry 1600000 + n of that list is the appended self-loop of n. -/
theorem deg_real_pos (x1 : (⟨S2x1600000, .i32⟩ : BufTy).Contents (Elt Ideal)) (n : Fin 100000) :
    ∃ r : ℝ, 1 ≤ r ∧ Read.val_main_v10 (F := Ideal) x1 (ix1 n) = (r : EReal) := by
  unfold Read.val_main_v10
  refine scatter_ones_real_pos scatter_S100000_S1700000x1_S1700000_n_0_0_1 rfl rfl rfl rfl
    (Read.val_main_v8 (F := Ideal)) (Read.val_main_v9 (F := Ideal) x1) (Read.val_main_v7 (F := Ideal))
    (fun i => ?_) (fun i => ?_) n ⟨⟨1600000 + n.val, by omega⟩, ?_⟩
  · -- the operand is the zero word everywhere
    rw [Read.val_main_v8_apply, Read.val_main_cst_0_apply]
    exact GcnLaw.ofBits_zero
  · -- the updates are the word of the real one everywhere
    rw [Read.val_main_v7_apply, Read.val_main_cst_apply]
    exact Ideal.ofBits_one_f32
  · -- entry 1600000 + n of the destination list is n
    exact Segments.selfloop_toInt 1600000 100000 1700000 rfl (by norm_num) (Read.val_main_v3 (F := Ideal) x1)
      concatenates_S1600000_S100000_S1700000_d0 bcast_S1700000_S1700000x1_0 n

/-- The inverse square root of every node's degree is a real number. -/
theorem dinv_real (x1 : (⟨S2x1600000, .i32⟩ : BufTy).Contents (Elt Ideal)) (i : S100000.Idx) :
    Fin' (Read.val_main_v11 (F := Ideal) x1 i) := by
  have hi : i = ix1 (⟨(i 0).val, (i 0).isLt⟩ : Fin 100000) := by
    funext d; match d with | ⟨0, _⟩ => rfl
  obtain ⟨r, hr, he⟩ := deg_real_pos x1 ⟨(i 0).val, (i 0).isLt⟩
  rw [← hi] at he
  obtain ⟨s, hs⟩ := Segments.rsqrt_real_of_pos r hr
  rw [Read.val_main_v11_apply, he]
  show Fin' (Ideal.rsqrt (r : EReal))
  rw [hs]
  exact fin'_coe s

/-- The weight of every edge — the product of the inverse square roots of the degrees of the two nodes the
    edge's two gathers read — is a real number. -/
theorem nrm_real (x1 : (⟨S2x1600000, .i32⟩ : BufTy).Contents (Elt Ideal)) (i : S1700000.Idx) :
    Fin' (Read.val_main_v26 (F := Ideal) x1 i) := by
  -- a gather's element is the operand's at the index the gather computes
  have h18 : Read.val_main_v18 (F := Ideal) x1 i = Read.val_main_v11 (F := Ideal) x1
      (gather_S100000_S1700000x1_S1700000_n_0_n_n_0_1_1.operandIdx i (Read.val_main_v17 (F := Ideal) x1)) := rfl
  have h25 : Read.val_main_v25 (F := Ideal) x1 i = Read.val_main_v11 (F := Ideal) x1
      (gather_S100000_S1700000x1_S1700000_n_0_n_n_0_1_1.operandIdx i (Read.val_main_v24 (F := Ideal) x1)) := rfl
  rw [Read.val_main_v26_apply, h18, h25]
  exact GcnLaw.fin'_mul (dinv_real x1 _) (dinv_real x1 _)

end Cert.ReferenceIdeal.NormReal

end
-- ==== Proof.FiniteInputs.lean ====
/-
  Finite float inputs are real entries.

  The precondition of this certificate is a one-bit word: the conjunction, over the five float arrays, of "every entry `x`
  satisfies `|x| < +∞`", each array's conjunction taken by a reduction with `and` from `1`.  On the extended reals `|x|` is
  `max x (-x)`, which is `+∞` at both infinities and `|r|` at a real `r`; so `|x| < +∞` holds exactly when `x` is a real.
  `entries_real`: if the precondition is the word `1`, every entry of every float array is a real.
-/
import proofs.«171908_j39848706572466_2_alg».proof.Pre_finite_inputs
import proofs.«171908_j39848706572466_2_alg».proof.Proof.Gen.Pre_finite_inputs
import Idealize.ShloMosaic.Lib.ReduceAll
import Idealize.ShloMosaic.Lib.ValueIdx
import proofs.«171908_j39848706572466_2_alg».proof.Proof.LibRealSums

noncomputable section

namespace FiniteInputs

open Idealize.ShloMosaic
open Cert.Lib.RealSums
open Cert.Pre_finite_inputs

/-- The shape of rank zero has exactly one index. -/
instance : Subsingleton S_.Idx := ⟨fun a b => funext fun d => d.elim0⟩

/-- The binary32 word with all-ones exponent and zero significand denotes `+∞`. -/
theorem inf_word : Ideal.ofBits .f32 0x7F800000#32 = (⊤ : EReal) := by
  simp [Ideal.ofBits, Ideal.ieee]

/-- An extended real whose absolute value `max x (-x)` is strictly below `+∞` is a real:
    at either infinity the absolute value is `+∞` itself. -/
theorem fin'_of_abs_lt (x : EReal) (h : Ideal.cmp .olt (max x (-x)) (Ideal.ofBits .f32 0x7F800000#32) = 1#1) : Fin' x := by
  rw [inf_word] at h
  induction x using EReal.rec
  · simp [Ideal.cmp] at h
  · exact fin'_coe _
  · simp [Ideal.cmp] at h

variable [Cert.Pre_finite_inputs.Facts]

/-- If the finiteness precondition evaluates to the word `1`, every entry of each of the five float arrays is a real. -/
theorem entries_real (x0 : FVec Ideal S100000x128 .f32) (x1 : IVec S2x1600000 32) (x2 : FVec Ideal S128x64 .f32)
    (x3 : FVec Ideal S64 .f32) (x4 : FVec Ideal S64x128 .f32) (x5 : FVec Ideal S128 .f32)
    (h : Cert.Pre_finite_inputs.fn (F := Ideal) x0 x1 x2 x3 x4 x5 = fun _ => 1#1) :
    (∀ i, Fin' (x0 i)) ∧ (∀ i, Fin' (x2 i)) ∧ (∀ i, Fin' (x3 i)) ∧ (∀ i, Fin' (x4 i)) ∧ (∀ i, Fin' (x5 i)) := by
  have e := congrFun h ValueIdx.ix0
  dsimp only [Cert.Pre_finite_inputs.fn, Cert.Pre_finite_inputs.fn_part1] at e
  -- the conjunction of the five array-wide conjunctions
  dsimp only [andi] at e
  rw [IntOp.andi_eq_one, IntOp.andi_eq_one, IntOp.andi_eq_one, IntOp.andi_eq_one] at e
  obtain ⟨⟨⟨⟨e0, e2⟩, e3⟩, e4⟩, e5⟩ := e
  -- each array-wide conjunction gives the comparison at every index, and the comparison says the entry is a real
  exact ⟨fun i => fin'_of_abs_lt (x0 i) (Host.reduce_andi_all _ _ _ _ _ e0 i),
    fun i => fin'_of_abs_lt (x2 i) (Host.reduce_andi_all _ _ _ _ _ e2 i),
    fun i => fin'_of_abs_lt (x3 i) (Host.reduce_andi_all _ _ _ _ _ e3 i),
    fun i => fin'_of_abs_lt (x4 i) (Host.reduce_andi_all _ _ _ _ _ e4 i),
    fun i => fin'_of_abs_lt (x5 i) (Host.reduce_andi_all _ _ _ _ _ e5 i)⟩

end FiniteInputs

end
-- ==== Proof.Bridge.lean ====
/-
  The kernel's term and the reference's stage are one function of the six arrays, on real data.

  Layer 1 is the same function on both sides (the product spelled entry by entry is the host's product; the bias added as
  a row is the bias broadcast over the rows).  Layer 2 differs in order: the kernel aggregates the 64 hidden features and
  then multiplies by W2, the reference multiplies by W2 and aggregates the 128 products.  Aggregation is a finite
  linear combination of rows with the edge weights as coefficients, and the product acts on each row separately, so the
  two agree when every number involved is a real: the inputs by the precondition, the edge weights because every node
  carries its own appended self-loop (degree at least one), the hidden layer as a rectified real combination of reals.
-/
import proofs.«171908_j39848706572466_2_alg».proof.Proof.KernelTerm
import proofs.«171908_j39848706572466_2_alg».proof.Proof.NormReal
import proofs.«171908_j39848706572466_2_alg».proof.Proof.FiniteInputs

noncomputable section

namespace Cert.Bridge

open Idealize.ShloMosaic Idealize.ShloMosaic.ValueIdx
open Cert.KernelIdeal.KTerm Cert.GcnModel Cert.GcnSpec Cert.Lib.DenseLayer Cert.Lib.RealSums

/-! ## The printed records are row scatters and row gathers; the two programs' 64-wide records are one -/

theorem rowScatterK : RowScatter Cert.KernelIdeal.scatter_S100000x64_S1700000x1_S1700000x64_1_0_0_1 := ⟨rfl, rfl, rfl, rfl⟩
theorem rowGatherK : RowGather Cert.KernelIdeal.gather_S100000x64_S1700000x1_S1700000x64_1_0_n_n_0_1_164 :=
  ⟨rfl, rfl, rfl, rfl, rfl, rfl, rfl⟩
theorem rowScatterR : RowScatter Cert.ReferenceIdeal.scatter_S100000x128_S1700000x1_S1700000x128_1_0_0_1 := ⟨rfl, rfl, rfl, rfl⟩
theorem rowGatherR : RowGather Cert.ReferenceIdeal.gather_S100000x128_S1700000x1_S1700000x128_1_0_n_n_0_1_1128 :=
  ⟨rfl, rfl, rfl, rfl, rfl, rfl, rfl⟩
theorem scatter64_eq : Cert.KernelIdeal.scatter_S100000x64_S1700000x1_S1700000x64_1_0_0_1
    = Cert.ReferenceIdeal.scatter_S100000x64_S1700000x1_S1700000x64_1_0_0_1 := rfl
theorem gather64_eq : Cert.KernelIdeal.gather_S100000x64_S1700000x1_S1700000x64_1_0_n_n_0_1_164
    = Cert.ReferenceIdeal.gather_S100000x64_S1700000x1_S1700000x64_1_0_n_n_0_1_164 := rfl

variable (x0 : FVec Ideal Cert.KernelIdeal.S100000x128 .f32) (x1 : IVec Cert.KernelIdeal.S2x1600000 32)
  (x2 : FVec Ideal Cert.KernelIdeal.S128x64 .f32) (x3 : FVec Ideal Cert.KernelIdeal.S64 .f32)
  (x4 : FVec Ideal Cert.KernelIdeal.S64x128 .f32) (x5 : FVec Ideal Cert.KernelIdeal.S128 .f32)

/-- The edge weights are reals. -/
theorem nrm_allReal : AllReal (Cert.ReferenceIdeal.Read.val_main_v26 (F := Ideal) x1) :=
  fun i => Cert.ReferenceIdeal.NormReal.nrm_real x1 i

/-- On real features, first weights and first bias the hidden layer is real. -/
theorem hidden_allReal (hx0 : AllReal x0) (hx2 : AllReal x2) (hx3 : AllReal x3) : AllReal (hiddenOf x0 x1 x2 x3) :=
  hidden_real rowScatterK rowGatherK (by norm_num) _ _ _ _ _ _ _ x0 x2 x3 (nrm_allReal x1) hx0 hx2 hx3

/-- THE TWO SIDES: on real inputs the kernel's term is the reference's last stage. -/
theorem result_eq (hx0 : AllReal x0) (hx2 : AllReal x2) (hx3 : AllReal x3) (hx4 : AllReal x4) :
    resultOf x0 x1 x2 x3 x4 x5 = Cert.ReferenceIdeal.Read.val_main_v61 (F := Ideal) x0 x1 x2 x3 x4 x5 := by
  unfold resultOf
  unfold aggK
  rw [output_eq rowScatterK rowGatherK rowScatterR rowGatherR (by norm_num)
    Cert.KernelIdeal.Facts₀.bcast_S_S100000x64 Cert.KernelIdeal.Facts₀.bcast_S1700000_S1700000x1_0 Cert.KernelIdeal.Facts₀.bcast_S1700000x1_S1700000x64_0_1
    Cert.ReferenceIdeal.Facts₀.bcast_S_S100000x128 Cert.ReferenceIdeal.Facts₀.bcast_S1700000_S1700000x1_0 Cert.ReferenceIdeal.Facts₀.bcast_S1700000x1_S1700000x128_0_1
    Cert.ReferenceIdeal.dot_S100000x64_S64x128_S100000x128_1_0_0_1_n_n rfl
    Cert.ReferenceIdeal.Facts₀.bcast_S128_S1x128_1 Cert.ReferenceIdeal.Facts₀.bcast_S1x128_S100000x128_0_1 _ _ _ _ _ x4 x5
    (nrm_allReal x1) (hidden_allReal x0 x1 x2 x3 hx0 hx2 hx3) hx4]
  unfold hiddenOf aggK
  rw [scatter64_eq, gather64_eq]
  rw [hidden_eq _ _ _ _ _ Cert.ReferenceIdeal.dot_S100000x128_S128x64_S100000x64_1_0_0_1_n_n rfl
    Cert.ReferenceIdeal.Facts₀.bcast_S64_S1x64_1 Cert.ReferenceIdeal.Facts₀.bcast_S1x64_S100000x64_0_1 Cert.ReferenceIdeal.Facts₀.bcast_S_S100000x64]
  rfl

end Cert.Bridge

end
-- ==== Proof.lean ====
/-
  The certificate of a two-layer graph convolution: a kernel of three row-blocked grids (x · W1; bias and rectifier;
  · W2 + b2) with the edge aggregation between them on the host, against the reference that aggregates after each
  projection.

  The three frames: the two kernels' are the generated ones; the reference has no kernel, so its frame is its run with
  the result dropped.  The idealization rewrote nothing, so there is nothing to preserve.  The value claim: the kernel's run
  ends with its result array at one term of the six arguments (three grids' outputs read through the host operations
  between them), the reference's at its last stage, and on finite inputs the two are one function — layer 1 literally,
  layer 2 because aggregation is a finite real-linear combination of rows and commutes with a matrix product on the right.
-/
import proofs.«171908_j39848706572466_2_alg».proof.Defs
import proofs.«171908_j39848706572466_2_alg».proof.Proof.Gen.Kernel
import proofs.«171908_j39848706572466_2_alg».proof.Proof.Gen.Kernel.Skeleton
import proofs.«171908_j39848706572466_2_alg».proof.Proof.Gen.Kernel.Launch
import proofs.«171908_j39848706572466_2_alg».proof.Proof.Gen.Kernel.Points
import proofs.«171908_j39848706572466_2_alg».proof.Proof.Gen.Kernel.Frame
import proofs.«171908_j39848706572466_2_alg».proof.Proof.Gen.KernelIdeal
import proofs.«171908_j39848706572466_2_alg».proof.Proof.Gen.KernelIdeal.Skeleton
import proofs.«171908_j39848706572466_2_alg».proof.Proof.Gen.KernelIdeal.Launch
import proofs.«171908_j39848706572466_2_alg».proof.Proof.Gen.KernelIdeal.Points
import proofs.«171908_j39848706572466_2_alg».proof.Proof.Gen.KernelIdeal.Frame
import proofs.«171908_j39848706572466_2_alg».proof.Proof.Gen.ReferenceIdeal
import proofs.«171908_j39848706572466_2_alg».proof.Proof.Gen.Pre_finite_inputs
import proofs.«171908_j39848706572466_2_alg».proof.Proof.Gen.ReferenceIdeal.Run
import proofs.«171908_j39848706572466_2_alg».proof.Proof.Gen.ReferenceIdeal.Read
import proofs.«171908_j39848706572466_2_alg».proof.Proof.KernelRun
import proofs.«171908_j39848706572466_2_alg».proof.Proof.KernelValue
import proofs.«171908_j39848706572466_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's run ends with its result at the kernel's term of the arguments, the reference's at its last stage of
    arguments that agree; on finite inputs the two are one function. -/
theorem algebraic : Cert.algebraic_KernelIdeal_ReferenceIdeal := by
  intro m ρ m' ρ' hpre hagree
  refine ⟨fun c => Cert.KernelIdeal.KTerm.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.W6_v0 m ρ c), (h c).2⟩)
      (Cert.KernelIdeal.KRun.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]
    obtain ⟨h0, h2, h3, h4, h5⟩ := FiniteInputs.entries_real _ _ _ _ _ _ (hpre c)
    exact (Cert.Bridge.result_eq _ _ _ _ _ _ h0 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
